-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S100x64 1) : IVec S_ 1 :=
  let main_c_5 : IVec S_ 1 := constantI S_ 1 1#1
  let main_v17 : IVec S_ 1 := (fun x v => Host.reduce IntOp.andi x v reducesTo_S100x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x100 .f32) (main_arg3 : FVec F S100 .f32) (main_arg4 : FVec F S100x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x64 .f32 := Host.absf main_arg4
  let main_cst_4 : FVec F S_ .f32 := constant S_ .f32 0x7F800000#32
  let main_v15 : FVec F S100x64 .f32 := broadcastInDim S100x64 ![] bcast_S_S100x64 main_cst_4
  let main_v16 : IVec S100x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S128x128 : Shape := ⟨2, ![128, 128]⟩
abbrev S1 : Shape := ⟨1, ![1]⟩
abbrev S1x128 : Shape := ⟨2, ![1, 128]⟩
abbrev S2 : Shape := ⟨1, ![2]⟩
abbrev S128x64 : Shape := ⟨2, ![128, 64]⟩
abbrev S1x64 : Shape := ⟨2, ![1, 64]⟩
abbrev S5000x128 : Shape := ⟨2, ![5000, 128]⟩
abbrev S5000x1 : Shape := ⟨2, ![5000, 1]⟩
abbrev S850000x128 : Shape := ⟨2, ![850000, 128]⟩
abbrev S50000x64 : Shape := ⟨2, ![50000, 64]⟩
abbrev S5000x64 : Shape := ⟨2, ![5000, 64]⟩
abbrev S850000x64 : Shape := ⟨2, ![850000, 64]⟩
abbrev S5000 : Shape := ⟨1, ![5000]⟩

abbrev nBuf : Space → Nat
  | .hbm => 79
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x100, .f32⟩
  | .hbm, ⟨3, _⟩ => ⟨S100, .f32⟩
  | .hbm, ⟨4, _⟩ => ⟨S100x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S128x128, .f32⟩
  | .hbm, ⟨33, _⟩ => ⟨S_, .i32⟩
  | .hbm, ⟨34, _⟩ => ⟨S1, .i32⟩
  | .hbm, ⟨35, _⟩ => ⟨S128x128, .f32⟩
  | .hbm, ⟨36, _⟩ => ⟨S_, .f32⟩
  | .hbm, ⟨37, _⟩ => ⟨S1x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S_, .f32⟩
  | .hbm, ⟨45, _⟩ => ⟨S128x64, .f32⟩
  | .hbm, ⟨46, _⟩ => ⟨S_, .i32⟩
  | .hbm, ⟨47, _⟩ => ⟨S1, .i32⟩
  | .hbm, ⟨48, _⟩ => ⟨S128x64, .f32⟩
  | .hbm, ⟨49, _⟩ => ⟨S1x64, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S_, .f32⟩
  | .hbm, ⟨75, _⟩ => ⟨S50000x64, .f32⟩
  | .hbm, ⟨76, _⟩ => ⟨S850000x1, .i32⟩
  | .hbm, ⟨77, _⟩ => ⟨S50000x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_c_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S_S128x128 : S_.BroadcastsInDim S128x128 (![] : Fin 0 → Fin S128x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S128x64 : S_.BroadcastsInDim S128x64 (![] : Fin 0 → Fin S128x64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  scatter_S128x128_S1_S128x100_01_n_1_0_wf : ScatterDims.WF S128x128 S1 S128x100 [0, 1] [] [1] 0
  scatter_S1x128_S2_S100_0_0_01_0_wf : ScatterDims.WF S1x128 S2 S100 [0] [0] [0, 1] 0
  scatter_S128x64_S1_S100x64_01_n_0_0_wf : ScatterDims.WF S128x64 S1 S100x64 [0, 1] [] [0] 0
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def scatter_S128x128_S1_S128x100_01_n_1_0 : ScatterDims S128x128 S1 S128x100 where
  updateWindowDims := [0, 1]
  insertedWindowDims := []
  scatterDimsToOperandDims := [1]
  indexVectorDim := 0
  wf := scatter_S128x128_S1_S128x100_01_n_1_0_wf
def scatter_S1x128_S2_S100_0_0_01_0 : ScatterDims S1x128 S2 S100 where
  updateWindowDims := [0]
  insertedWindowDims := [0]
  scatterDimsToOperandDims := [0, 1]
  indexVectorDim := 0
  wf := scatter_S1x128_S2_S100_0_0_01_0_wf
def scatter_S128x64_S1_S100x64_01_n_0_0 : ScatterDims S128x64 S1 S100x64 where
  updateWindowDims := [0, 1]
  insertedWindowDims := []
  scatterDimsToOperandDims := [0]
  indexVectorDim := 0
  wf := scatter_S128x64_S1_S100x64_01_n_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x100 : Shape := ⟨2, ![128, 100]⟩
abbrev S100 : Shape := ⟨1, ![100]⟩
abbrev S100x64 : Shape := ⟨2, ![100, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x100 : Shape := ⟨2, ![50000, 100]⟩
abbrev S_ : Shape := ⟨0, ![]⟩
abbrev S850000x1 : Shape := ⟨2, ![850000, 1]⟩
abbrev S850000x100 : Shape := ⟨2, ![850000, 100]⟩
abbrev S1x100 : Shape := ⟨2, ![1, 100]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x100, .f32⟩
  | 3 => ⟨S100, .f32⟩
  | 4 => ⟨S100x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x100, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x100, .f32⟩
  | 59 => ⟨S850000x1, .f32⟩
  | 60 => ⟨S850000x100, .f32⟩
  | 61 => ⟨S850000x100, .f32⟩
  | 62 => ⟨S_, .f32⟩
  | 63 => ⟨S50000x100, .f32⟩
  | 64 => ⟨S850000x1, .i32⟩
  | 65 => ⟨S50000x100, .f32⟩
  | 66 => ⟨S1x100, .f32⟩
  | 67 => ⟨S50000x100, .f32⟩
  | 68 => ⟨S50000x100, .f32⟩
  | 69 => ⟨S_, .f32⟩
  | 70 => ⟨S50000x100, .f32⟩
  | 71 => ⟨S50000x100, .f32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000, .f32⟩
  | 3 => ⟨S50000x1, .f32⟩
  | 4 => ⟨S50000x1, .f32⟩
  | 5 => ⟨S_, .f32⟩
  | 6 => ⟨S50000x1, .f32⟩
  | 7 => ⟨S50000x1, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_22 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_23 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S50000x128_S128x100_S50000x100_1_0_0_1_n_n_wf : DotDims.WF S50000x128 S128x100 S50000x100 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x64_S50000x64_1_0_0_1_n_n_wf : DotDims.WF S50000x100 S100x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
import proofs.«167101_j2869038154062_2_alg».proof.Proof.Gen.KernelIdeal.Frame

/-! # The kernel program's run, with its result named

The program is three kernels among stretches of host operations. Its run — every weakly fair execution terminates,
nothing faults, the arguments end as launched — is the generated frame; the same launch of the same segments also
leaves every unscoped buffer at the last boundary's contents, so the result buffer ends at those contents too. The
term is the generated frame's, with that one more conjunct read off the final state. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last segment leaves in it and the arguments as launched. -/
theorem run_named : θ_run defs (onTc (τ := τ) (main (F := F))) ⟨m, fun _ => 0, ρ⟩ (fun r => ∀ c : Dev nD,
      r.2.mem ((c.tc : Thread nD τ).loc main_v52) = W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.KHost12.lean ====
import proofs.«167101_j2869038154062_2_alg».proof.Proof.Gen.KernelIdeal.Frame
import Idealize.ShloMosaic.PureOps.Ideal

/-! # The two aggregations of the kernel program, as host operations

Between the kernels the program gathers rows of a table by the edges' source indices (negative ones wrapped by the
number of nodes) and adds them into the rows the destination indices name. Read from ANY contents `V` of the buffers:
the aggregated table is that one composed function of the source indices, the destination indices and the table. -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

/-- The source indices as gather start indices: a negative index wrapped by the number of nodes, as a column. -/
def wrapCol (s : (⟨S850000, .i32⟩ : BufTy).Contents (Elt Ideal)) : (⟨S850000x1, .i32⟩ : BufTy).Contents (Elt Ideal) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The destination indices as scatter indices: as they stand, as a column. -/
def plainCol (t : (⟨S850000, .i32⟩ : BufTy).Contents (Elt Ideal)) : (⟨S850000x1, .i32⟩ : BufTy).Contents (Elt Ideal) :=
  broadcastInDim S850000x1 ![0] bcast_S850000_S850000x1_0 t

/-- Rows of a 128-wide table gathered by source and added up by destination. -/
def agg128 (s t : (⟨S850000, .i32⟩ : BufTy).Contents (Elt Ideal)) (g : (⟨S50000x128, .f32⟩ : BufTy).Contents (Elt Ideal)) :
    (⟨S50000x128, .f32⟩ : BufTy).Contents (Elt Ideal) :=
  Host.scatterAdd (F := Ideal) (φ := .f32) scatter_S50000x128_S850000x1_S850000x128_1_0_0_1
    (broadcastInDim S50000x128 ![] bcast_S_S50000x128 (constant S_ .f32 0x00000000#32)) (plainCol t)
    (Host.gather gather_S50000x128_S850000x1_S850000x128_1_0_n_n_0_1_1128 g (wrapCol s))

/-- Rows of a 64-wide table gathered by source and added up by destination. -/
def agg64 (s t : (⟨S850000, .i32⟩ : BufTy).Contents (Elt Ideal)) (g : (⟨S50000x64, .f32⟩ : BufTy).Contents (Elt Ideal)) :
    (⟨S50000x64, .f32⟩ : BufTy).Contents (Elt Ideal) :=
  Host.scatterAdd (F := Ideal) (φ := .f32) scatter_S50000x64_S850000x1_S850000x64_1_0_0_1
    (broadcastInDim S50000x64 ![] bcast_S_S50000x64 (constant S_ .f32 0x00000000#32)) (plainCol t)
    (Host.gather gather_S50000x64_S850000x1_S850000x64_1_0_n_n_0_1_164 g (wrapCol s))

variable (V : Valuation τ sig (Elt Ideal))

set_option maxHeartbeats 4000000 in
/-- The stretch before the second kernel leaves its first operand at the aggregation of the first kernel's result. -/
theorem hostOps1_v40 :
    StableHlo.after hostOps1 V (Proc.devRef .tc main_v40)
      = agg128 (V (Proc.devRef .tc main_v3)) (V (Proc.devRef .tc main_v6)) (V (Proc.devRef .tc main_v30)) := by
  after_results_simp
  rfl

set_option maxHeartbeats 4000000 in
/-- The stretch before the third kernel leaves its first operand at the aggregation of the second kernel's result. -/
theorem hostOps2_v51 :
    StableHlo.after hostOps2 V (Proc.devRef .tc main_v51)
      = agg64 (V (Proc.devRef .tc main_v3)) (V (Proc.devRef .tc main_v6)) (V (Proc.devRef .tc main_v41)) := by
  after_results_simp
  rfl

end Cert.KernelIdeal.Gen

end
-- ==== Proof.KHost0.lean ====
import proofs.«167101_j2869038154062_2_alg».proof.Proof.Gen.KernelIdeal.Frame
import proofs.«167101_j2869038154062_2_alg».proof.Proof.RefReadP
import proofs.«167101_j2869038154062_2_alg».proof.Proof.KHost12
import Idealize.ShloMosaic.PureOps.Ideal

/-! # What the first kernel finds in its buffers

Before the first kernel the program builds, from its arguments: the edges' source and destination indices (the given
edges followed by a self-loop per node), each node's scale as a column, and the two weight matrices and the first
bias widened with zeros to 128. The index arrays and the scale are the very terms the reference program computes
from the edge list; the widened arrays are window writes into zero arrays. -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The edges' indices -/

set_option maxHeartbeats 4000000 in
theorem W1_v3 (c : Dev nD) : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  after_results_simp <;> rfl

set_option maxHeartbeats 4000000 in
theorem W1_v6 (c : Dev nD) : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  after_results_simp <;> rfl

/-! ## The scale: the operations after the destination indices, read from any contents -/

/-- The launch-side operations after the two index arrays are built. -/
abbrev opsB : List (HloOp τ sig (Elt Ideal)) := List.drop 7 hostOps0

variable (V : Valuation τ sig (Elt Ideal))

/-- The in-degree of every node: ones added up by destination. -/
def deg (t : (⟨S850000, .i32⟩ : BufTy).Contents (Elt Ideal)) : (⟨S50000, .f32⟩ : BufTy).Contents (Elt Ideal) :=
  Host.scatterAdd (F := Ideal) (φ := .f32) scatter_S50000_S850000x1_S850000_n_0_0_1
    (broadcastInDim S50000 ![] bcast_S_S50000 (constant S_ .f32 0x00000000#32)) (plainCol t)
    (broadcastInDim S850000 ![] bcast_S_S850000 (constant S_ .f32 0x3F800000#32))

set_option maxHeartbeats 4000000 in
theorem opsB_v12 : StableHlo.after opsB V (Proc.devRef .tc main_v12)
    = cmpf (F := Ideal) .ogt (deg (V (Proc.devRef .tc main_v6))) (broadcastInDim S50000 ![] bcast_S_S50000 (constant S_ .f32 0x00000000#32)) := by
  show StableHlo.after (List.drop 7 hostOps0) V _ = _
  simp only [hostOps0, List.drop_succ_cons, List.drop_zero]
  after_results_simp <;> rfl

set_option maxHeartbeats 4000000 in
theorem opsB_v15 : StableHlo.after opsB V (Proc.devRef .tc main_v15)
    = Host.rsqrt (F := Ideal) (maximumf (deg (V (Proc.devRef .tc main_v6))) (broadcastInDim S50000 ![] bcast_S_S50000 (constant S_ .f32 0x3F800000#32))) := by
  show StableHlo.after (List.drop 7 hostOps0) V _ = _
  simp only [hostOps0, List.drop_succ_cons, List.drop_zero]
  after_results_simp <;> rfl

set_option maxHeartbeats 4000000 in
theorem opsB_cst3 : StableHlo.after opsB V (Proc.devRef .tc main_cst_3) = constant (F := Ideal) S_ .f32 0x00000000#32 := by
  show StableHlo.after (List.drop 7 hostOps0) V _ = _
  simp only [hostOps0, List.drop_succ_cons, List.drop_zero]
  after_results_simp <;> rfl

set_option maxHeartbeats 4000000 in
theorem opsB_v6 : StableHlo.after opsB V (Proc.devRef .tc main_v6) = V (Proc.devRef .tc main_v6) := by
  show StableHlo.after (List.drop 7 hostOps0) V _ = _
  simp only [hostOps0, List.drop_succ_cons, List.drop_zero]
  after_results_simp

/-- The contents after the first seven launch-side operations (the two index arrays). -/
abbrev VA (c : Dev nD) : Valuation τ sig (Elt Ideal) := StableHlo.after (List.take 7 hostOps0) (W0 m ρ c)

theorem W1_split (c : Dev nD) : W1 m ρ c = StableHlo.after opsB (VA m ρ c) := rfl

theorem VA_v6 (c : Dev nD) : VA m ρ c (Proc.devRef .tc main_v6)
    = Cert.ReferenceIdeal.ReadP.val_main_v6 (F := Ideal) (m ((c : Thread nD τ).loc main_arg1)) := by
  rw [← opsB_v6 (VA m ρ c), ← W1_split]; exact W1_v6 m ρ c

/-- The inlined selection: where the mask holds the second operand, elsewhere the broadcast third. -/
theorem ops01_v16 : StableHlo.after hostOps0_1 V (Proc.devRef .tc main_v16)
    = select (V (Proc.devRef .tc main_v12)) (V (Proc.devRef .tc main_v15))
        (broadcastInDim S50000 ![] bcast_S_S50000 (id (V (Proc.devRef .tc main_cst_3)))) := by
  after_results_simp <;> rfl

/-- The scale, before it is made a column: the reference's own stage of the edge list. -/
theorem W2_v16 (c : Dev nD) : W2 m ρ c (Proc.devRef .tc main_v16)
    = Cert.ReferenceIdeal.ReadP.val_main_v17 (F := Ideal) (m ((c : Thread nD τ).loc main_arg1)) := by
  show StableHlo.after hostOps0_1 (W1 m ρ c) _ = _
  rw [ops01_v16, W1_split, opsB_v12, opsB_v15, opsB_cst3, VA_v6]
  rfl

/-! ## The last launch-side stretch, read from any contents -/

set_option maxHeartbeats 4000000 in
theorem ops02_v17 : StableHlo.after hostOps0_2 V (Proc.devRef .tc main_v17)
    = shapeCast S50000x1 (V (Proc.devRef .tc main_v16)) shapeCasts_S50000_S50000x1 := by
  after_results_simp <;> rfl

set_option maxHeartbeats 4000000 in
theorem ops02_v20 : StableHlo.after hostOps0_2 V (Proc.devRef .tc main_v20)
    = Host.scatter scatter_S128x128_S1_S128x100_01_n_1_0 (fun _ b => b)
        (broadcastInDim S128x128 ![] bcast_S_S128x128 (constant (F := Ideal) S_ .f32 0x00000000#32))
        (broadcastInDim S1 ![] bcast_S_S1 (constantI S_ 32 0#32)) (V (Proc.devRef .tc main_arg2)) := by
  after_results_simp <;> rfl

set_option maxHeartbeats 4000000 in
theorem ops02_v25 : StableHlo.after hostOps0_2 V (Proc.devRef .tc main_v25)
    = Host.scatter scatter_S1x128_S2_S100_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (V (Proc.devRef .tc main_arg3)) := by
  after_results_simp <;> rfl

set_option maxHeartbeats 4000000 in
theorem ops02_v28 : StableHlo.after hostOps0_2 V (Proc.devRef .tc main_v28)
    = Host.scatter scatter_S128x64_S1_S100x64_01_n_0_0 (fun _ b => b)
        (broadcastInDim S128x64 ![] bcast_S_S128x64 (constant (F := Ideal) S_ .f32 0x00000000#32))
        (broadcastInDim S1 ![] bcast_S_S1 (constantI S_ 32 0#32)) (V (Proc.devRef .tc main_arg4)) := by
  after_results_simp <;> rfl

set_option maxHeartbeats 4000000 in
theorem ops02_v29 : StableHlo.after hostOps0_2 V (Proc.devRef .tc main_v29)
    = shapeCast S1x64 (V (Proc.devRef .tc main_arg5)) shapeCasts_S64_S1x64 := by
  after_results_simp <;> rfl

end Cert.KernelIdeal.Gen

end
-- ==== Proof.Arrays.lean ====
import Idealize.ShloMosaic.PureOps.Ideal
import Idealize.ShloMosaic.Lib.ValueIdx

/-! # The three kernels as functions of whole arrays, and the row a gather reads

Each kernel works on blocks of 5000 rows, and every row of its result depends only on the same row of its row-blocked
operands (and on all of the small resident operands). So each has a whole-array description, element by element:

* the first: a dense product with a 128 × 128 matrix, each row then scaled by that row's entry of a column;
* the second: scale each row by the column's entry, add a bias row, rectify, take the dense product with a 128 × 64
  matrix, scale the row again;
* the third: scale each row, add a bias row, and divide the row by its Euclidean norm bounded below by a constant.

Floats are extended reals and every operation is the exact one. -/

noncomputable section

open scoped BigOperators

namespace Cert.Gcn

open Idealize.ShloMosaic Idealize.ShloMosaic.ValueIdx

/-- An array of `a` rows and `b` columns of extended reals. -/
abbrev Arr2 (a b : Nat) : Type := (⟨2, ![a, b]⟩ : Shape).Idx → EReal

/-- The norm's lower bound: the single-precision constant nearest 1e-12, exactly. -/
def eps : EReal := Ideal.ofBits .f32 0x2B8CBCCC#32

/-- The first kernel's result at row `n`, column `j`: the dense product, scaled by the row's entry of the column `dc`. -/
def reg0 (x : Arr2 50000 128) (w : Arr2 128 128) (dc : Arr2 50000 1) (n : Fin 50000) (j : Fin 128) : EReal :=
  (∑ k : Fin 128, x (ix2 n k) * w (ix2 k j)) * dc (ix2 n 0)

/-- The second kernel's rectified activation at row `n`, column `j`. -/
def act1 (g : Arr2 50000 128) (dc : Arr2 50000 1) (b : Arr2 1 128) (n : Fin 50000) (j : Fin 128) : EReal :=
  max (g (ix2 n j) * dc (ix2 n 0) + b (ix2 0 j)) 0

/-- The second kernel's result at row `n`, column `o`. -/
def reg1 (g : Arr2 50000 128) (dc : Arr2 50000 1) (b : Arr2 1 128) (w : Arr2 128 64) (n : Fin 50000) (o : Fin 64) : EReal :=
  (∑ j : Fin 128, act1 g dc b n j * w (ix2 j o)) * dc (ix2 n 0)

/-- The third kernel's row before normalisation. -/
def pre2 (g : Arr2 50000 64) (dc : Arr2 50000 1) (b : Arr2 1 64) (n : Fin 50000) (o : Fin 64) : EReal :=
  g (ix2 n o) * dc (ix2 n 0) + b (ix2 0 o)

/-- The third kernel's result at row `n`, column `o`. -/
def reg2 (g : Arr2 50000 64) (dc : Arr2 50000 1) (b : Arr2 1 64) (n : Fin 50000) (o : Fin 64) : EReal :=
  Ideal.div (pre2 g dc b n o) (max (Ideal.sqrt (∑ o' : Fin 64, pre2 g dc b n o' * pre2 g dc b n o')) eps)

/-- The row of a 50000-row table that a gather reads for a start index: the index read as a signed integer, a negative
    one taken to 0, clamped to the last row. -/
def clampRow (b : BitVec 32) : Fin 50000 := ⟨min b.toInt.toNat 49999, by omega⟩

end Cert.Gcn

end
-- ==== Proof.Region0.lean ====
import proofs.«167101_j2869038154062_2_alg».proof.Proof.Gen.KernelIdeal.Frame
import proofs.«167101_j2869038154062_2_alg».proof.Proof.Arrays
import Idealize.ShloMosaic.Lib.Pipeline.Value
import Idealize.ShloMosaic.Lib.ValueIdx
import Idealize.ShloMosaic.Lib.ValueLayout
import Idealize.ShloMosaic.PureOps.Ideal.Laws

/-! # The first kernel's result array, element by element

The first kernel runs over ten blocks of 5000 rows. At each block it multiplies the block of `x` by the resident
128 × 128 matrix and scales each row by that row's entry of the column. Its stored value, read at one element of a
block, is the sum over the contraction axis times the column's entry; every block of the result array is therefore the
same block of one function of the whole arrays, and the ten blocks cover the array. -/

noncomputable section

open scoped BigOperators

namespace Cert.Gcn

open Idealize.ShloMosaic Idealize.ShloMosaic.ValueIdx Idealize.ShloMosaic.TcCoe Idealize.SL.Sem Cert.KernelIdeal Cert.KernelIdeal.Gen

/-! ## The stored value at one element of a block -/

/-- A column `[a, 1]` broadcast to `[a, b]` reads, at `(p, c)`, the column's entry at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lhs0_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs0_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
private theorem rhs0_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
private theorem rhs0_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The dense product into a zero accumulator, read at `(p, q)`: the sum over the contraction axis. -/
private theorem matmul0_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q) = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The kernel's stored value at `(p, q)` of a block: the row of the block of `x` times the column of the matrix, scaled
    by the row's entry of the column block. -/
private theorem pay0_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [shapeCast_self, shapeCast_self]
  refine (mulf_apply _ _ _).trans ?_
  refine congrArg₂ (· * ·) ?_ ?_
  · exact matmul0_apply _ _ p q
  · exact broadcastTo_a1_ab_apply _ _ p q

/-! ## What each point writes back -/

private theorem hz0 : (![0, 0] : Fin 2 → Nat) = fun _ => 0 := funext fun a => by fin_cases a <;> rfl

/-- The result array as one function of the whole arrays. -/
private abbrev G0 (x : Arr2 50000 128) (w : Arr2 128 128) (dc : Arr2 50000 1) : S50000x128.Idx → EReal :=
  fun i => reg0 x w dc ⟨(i 0).val, idx2_lt0 i⟩ ⟨(i 1).val, idx2_lt1 i⟩

/-- The index maps, decided over the grid: the row-blocked windows' block at point `t` is block `t` of the rows,
    the resident matrix's block is the matrix. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row `p` of the block of `x` at point `t` is row `5000 t + p` of `x`. -/
private theorem blk0_0_apply (c : Dev nD) (t : Fin cfg0.N) (p : Fin 5000) (k : Fin 128) (n : Fin 50000) (hn : n.val = 5000 * t.val + p.val) :
    iblk0 (F := Ideal) V c 0 t (ix2 p k : S5000x128.Idx) = V c main_arg0 (ix2 n k : S50000x128.Idx) := by
  obtain ⟨e0, e1, -⟩ := idx_facts0 t
  show V c main_arg0 (((cfg0.win 0).blk t).view.emb (ix2 p k : S5000x128.Idx)) = _
  congr 1
  funext a; apply Fin.ext
  match a with
  | ⟨0, _⟩ => show win0_0.index t (0 : Fin 2) * 5000 + 1 * p.val = n.val; omega
  | ⟨1, _⟩ => show win0_0.index t (1 : Fin 2) * 128 + 1 * k.val = k.val; omega

/-- The matrix's block at every point is the matrix. -/
private theorem blk0_1_apply (c : Dev nD) (t : Fin cfg0.N) (k q : Fin 128) :
    iblk0 (F := Ideal) V c 1 t (ix2 k q : S128x128.Idx) = V c main_v20 (ix2 k q : S128x128.Idx) := by
  obtain ⟨-, -, e2, e3, -⟩ := idx_facts0 t
  show V c main_v20 (((cfg0.win 1).blk t).view.emb (ix2 k q : S128x128.Idx)) = _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Row `p` of the column's block at point `t` is row `5000 t + p` of the column. -/
private theorem blk0_2_apply (c : Dev nD) (t : Fin cfg0.N) (p : Fin 5000) (n : Fin 50000) (hn : n.val = 5000 * t.val + p.val) :
    iblk0 (F := Ideal) V c 2 t (ix2 p (0 : Fin 1) : S5000x1.Idx) = V c main_v17 (ix2 n (0 : Fin 1) : S50000x1.Idx) := by
  obtain ⟨-, -, -, -, e4, e5, -⟩ := idx_facts0 t
  show V c main_v17 (((cfg0.win 2).blk t).view.emb (ix2 p (0 : Fin 1) : S5000x1.Idx)) = _
  congr 1
  funext a; apply Fin.ext
  match a with
  | ⟨0, _⟩ => show win0_2.index t (0 : Fin 2) * 5000 + 1 * p.val = n.val; omega
  | ⟨1, _⟩ => show win0_2.index t (1 : Fin 2) * 1 + 1 * 0 = 0; omega

/-- The stored value at `(p, q)` of the block at point `t` is the whole-array description at row `5000 t + p`. -/
private theorem blk0_value (c : Dev nD) (t : Fin cfg0.N) (p : Fin 5000) (q : Fin 128) (n : Fin 50000) (hn : n.val = 5000 * t.val + p.val) :
    k0_pay1 (F := Ideal) (iblk0 V c 0 t) (iblk0 V c 1 t) (iblk0 V c 2 t) (ix2 p q : S5000x128.Idx)
      = reg0 (V c main_arg0) (V c main_v20) (V c main_v17) n q := by
  refine (pay0_apply _ _ _ p q).trans ?_
  unfold reg0
  refine congrArg₂ (· * ·) (Finset.sum_congr rfl fun k _ => ?_) (blk0_2_apply V c t p n hn)
  exact congrArg₂ (· * ·) (blk0_0_apply V c t p k n hn) (blk0_1_apply V c t k q)

/-- What point `t` writes back is block `t` of the whole-array description. -/
private theorem flushed0_eq (c : Dev nD) (t : Fin cfg0.N) :
    (dat0 (F := Ideal) V c).flushed 3 t = ((cfg0.win 3).blk t).view.read (Elt Ideal) (G0 (V c main_arg0) (V c main_v20) (V c main_v17)) := by
  show (cfg0.win 3).cut (grid0.coords t) ((dat0 (F := Ideal) V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext y
  have hN : cfg0.N = 10 := N_0
  have ht : t.val < cfg0.N := t.isLt
  have hy0 : (y 0).val < 5000 := (y 0).isLt
  have hy1 : (y 1).val < 128 := (y 1).isLt
  obtain ⟨-, -, -, -, -, -, e6, e7⟩ := idx_facts0 t
  have hy : y = (ix2 (⟨(y 0).val, hy0⟩ : Fin 5000) (⟨(y 1).val, hy1⟩ : Fin 128) : S5000x128.Idx) :=
    funext fun a => by match a with | ⟨0, _⟩ => rfl | ⟨1, _⟩ => rfl
  show k0_pay1 (F := Ideal) (iblk0 V c 0 t) (iblk0 V c 1 t) (iblk0 V c 2 t) y
    = G0 (V c main_arg0) (V c main_v20) (V c main_v17) (((cfg0.win 3).blk t).view.emb y)
  refine (congrArg (k0_pay1 (F := Ideal) (iblk0 V c 0 t) (iblk0 V c 1 t) (iblk0 V c 2 t)) hy).trans ?_
  refine (blk0_value V c t ⟨(y 0).val, hy0⟩ ⟨(y 1).val, hy1⟩ ⟨5000 * t.val + (y 0).val, by omega⟩ rfl).trans ?_
  show reg0 _ _ _ _ _ = reg0 _ _ _ _ _
  congr 1
  · apply Fin.ext; show 5000 * t.val + (y 0).val = win0_3.index t (0 : Fin 2) * 5000 + 1 * (y 0).val; omega
  · apply Fin.ext; show (y 1).val = win0_3.index t (1 : Fin 2) * 128 + 1 * (y 1).val; omega

/-! ## The blocks cover the array -/

/-- An index of the array is in point `t`'s block iff each coordinate is in the block's range on its axis. -/
private theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v30).slice (win0_3.rect t)).set ↔ _
  rw [View.set_slice_whole, Rect.mem_set_unit]
  exact Iff.rfl

/-- Row `r` of the array is in the block of point `r / 5000`. -/
private theorem cover0 (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The result array -/

/-- The first kernel's result array after the region, at row `n` and column `j`, is the whole-array description of the
    arrays the region was entered with. -/
theorem region0_value (c : Dev nD) (n : Fin 50000) (j : Fin 128) :
    (dat0 (F := Ideal) V c).arrAt 3 cfg0.N (ix2 n j) = reg0 (V c main_arg0) (V c main_v20) (V c main_v17) n j := by
  have h := (dat0 (F := Ideal) V c).arrAt_eq_of_cover 3 (G0 (V c main_arg0) (V c main_v20) (V c main_v17))
    (fun t _ => flushed0_eq V c t) cover0
  exact congrFun h (ix2 n j)

end Cert.Gcn

end
-- ==== Proof.Region1.lean ====
import proofs.«167101_j2869038154062_2_alg».proof.Proof.Gen.KernelIdeal.Frame
import proofs.«167101_j2869038154062_2_alg».proof.Proof.Arrays
import Idealize.ShloMosaic.Lib.Pipeline.Value
import Idealize.ShloMosaic.Lib.ValueIdx
import Idealize.ShloMosaic.Lib.ValueLayout
import Idealize.ShloMosaic.PureOps.Ideal.Laws

/-! # The second kernel's result array

The second kernel's output window is written back at every one of the ten grid points, each point's block being rows
`5000 t … 5000 t + 4999`. What a point writes is, element by element, the whole-array function `reg1` of the region's
argument arrays read through that block; the ten blocks cover the array, so the array ends holding `reg1`. -/

noncomputable section

open scoped BigOperators

namespace Cert.Gcn

open Idealize.ShloMosaic Idealize.ShloMosaic.ValueIdx Idealize.ShloMosaic.TcCoe Idealize.SL.Sem Cert.KernelIdeal Cert.KernelIdeal.Gen

namespace R1

/-! ## The payload at an index -/

/-- A `[a, 1]` column broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of a product term keeps the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The right operand's index of a product term keeps the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The dense product into the zero accumulator, at an index: the sum over the contracted axis. -/
theorem matmul_apply1 (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ => exact rhs_col _ _)
  rw [el, er]

/-- The body's stored value at row `p`, column `q` of its block, from the loaded blocks. -/
theorem pay_apply (x0 : Vec Ideal S5000x128 .f32) (x1 : Vec Ideal S5000x1 .f32) (x2 : Vec Ideal S1x128 .f32) (x3 : Vec Ideal S128x64 .f32)
    (x4 : Vec Ideal S5000x1 .f32) (p : Fin 5000) (q : Fin 64) :
    k1_pay1 (F := Ideal) x0 x1 x2 x3 x4 (ix2 p q)
      = (∑ k : Fin 128, max (x0 (ix2 p k) * x1 (ix2 p 0) + x2 (ix2 0 k)) 0 * x3 (ix2 k q)) * x4 (ix2 p 0) := by
  unfold k1_pay1
  simp only [shapeCast_self]
  refine (mulf_apply _ _ _).trans ?_
  refine congrArg₂ (· * ·) ?_ (broadcastTo_a1_ab_apply _ _ p q)
  refine (matmul_apply1 _ _ p q).trans ?_
  refine Finset.sum_congr rfl fun k _ => ?_
  refine congrArg₂ (· * ·) ?_ (truncf_apply (φ := .f32) (ψ := .bf16) x3 bitsLt_bf16_f32 (ix2 k q))
  refine (truncf_apply (φ := .f32) (ψ := .bf16) _ bitsLt_bf16_f32 (ix2 p k)).trans ?_
  refine (maximumf_apply _ _ _).trans ?_
  refine congrArg₂ max ?_ ?_
  · refine (addf_apply _ _ _).trans ?_
    refine congrArg₂ (· + ·) ?_ (broadcastTo_1b_ab_apply _ _ p k)
    refine (mulf_apply _ _ _).trans ?_
    exact congrArg₂ (· * ·) rfl (broadcastTo_a1_ab_apply _ _ p k)
  · exact (broadcast_apply _ _).trans Ideal.ofBits_zero_f32

/-! ## The whole-array function, and the blocks a point reads -/

section Region
variable (V : (c : Dev nD) → (b : Ref sig .tc) → Buf (Elt Ideal) ((c : Thread nD τ).loc b)) (c : Dev nD)

/-- `reg1` as a function of the output array's index. -/
private def G1 (g : Arr2 50000 128) (dc : Arr2 50000 1) (b : Arr2 1 128) (w : Arr2 128 64) : S50000x64.Idx → EReal :=
  fun i => reg1 g dc b w ⟨(i 0).val, (i 0).isLt⟩ ⟨(i 1).val, (i 1).isLt⟩

theorem hz : (![0, 0] : Fin 2 → Nat) = fun _ => 0 := funext fun a => by fin_cases a <;> rfl

/-- The printed index maps over the grid: a row-blocked window's block index is the point on the row axis and zero on the
    column axis; a resident window's is zero on both. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the activations' block at point `t` is row `5000 t + p` of the array. -/
theorem rd0 (t : Fin cfg1.N) (p : Fin 5000) (k : Fin 128) (n : Fin 50000) (hn : n.val = 5000 * t.val + p.val) :
    (iblk1 (F := Ideal) V c 0 t : Vec Ideal S5000x128 .f32) (ix2 p k) = (V c main_v40 : Arr2 50000 128) (ix2 n k) := by
  obtain ⟨e0, e1, -⟩ := idx_facts t
  unfold iblk1
  rw [View.read_apply]
  show V c main_v40 (((cfg1.win 0).blk t).view.emb (ix2 p k)) = V c main_v40 (ix2 n k)
  refine congrArg (V c main_v40) (funext fun a => Fin.ext ?_)
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Row `p` of the column's block at point `t` is row `5000 t + p` of the column. -/
theorem rd1 (t : Fin cfg1.N) (p : Fin 5000) (n : Fin 50000) (hn : n.val = 5000 * t.val + p.val) :
    (iblk1 (F := Ideal) V c 1 t : Vec Ideal S5000x1 .f32) (ix2 p 0) = (V c main_v17 : Arr2 50000 1) (ix2 n 0) := by
  obtain ⟨-, -, e0, e1, -⟩ := idx_facts t
  unfold iblk1
  rw [View.read_apply]
  show V c main_v17 (((cfg1.win 1).blk t).view.emb (ix2 p 0)) = V c main_v17 (ix2 n 0)
  refine congrArg (V c main_v17) (funext fun a => Fin.ext ?_)
  match a with
  | ⟨0, _⟩ => show win1_1.index t (0 : Fin 2) * 5000 + 1 * p.val = n.val; rw [e0, hn]; omega
  | ⟨1, _⟩ => show win1_1.index t (1 : Fin 2) * 1 + 1 * 0 = 0; rw [e1]

/-- The bias row's block at any point is the row. -/
theorem rd2 (t : Fin cfg1.N) (k : Fin 128) :
    (iblk1 (F := Ideal) V c 2 t : Vec Ideal S1x128 .f32) (ix2 0 k) = (V c main_v25 : Arr2 1 128) (ix2 0 k) := by
  obtain ⟨-, -, -, -, e0, e1, -⟩ := idx_facts t
  unfold iblk1
  rw [View.read_apply]
  show V c main_v25 (((cfg1.win 2).blk t).view.emb (ix2 0 k)) = V c main_v25 (ix2 0 k)
  refine congrArg (V c main_v25) (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The matrix's block at any point is the matrix. -/
theorem rd3 (t : Fin cfg1.N) (k : Fin 128) (q : Fin 64) :
    (iblk1 (F := Ideal) V c 3 t : Vec Ideal S128x64 .f32) (ix2 k q) = (V c main_v28 : Arr2 128 64) (ix2 k q) := by
  obtain ⟨-, -, -, -, -, -, e0, e1, -⟩ := idx_facts t
  unfold iblk1
  rw [View.read_apply]
  show V c main_v28 (((cfg1.win 3).blk t).view.emb (ix2 k q)) = V c main_v28 (ix2 k q)
  refine congrArg (V c main_v28) (funext fun a => Fin.ext ?_)
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- Element `(p, q)` of the output's block at point `t` sits at row `5000 t + p`, column `q` of the array. -/
theorem emb4 (t : Fin cfg1.N) (p : Fin 5000) (q : Fin 64) (n : Fin 50000) (hn : n.val = 5000 * t.val + p.val) :
    ((cfg1.win 4).blk t).view.emb (ix2 p q) = (ix2 n q : S50000x64.Idx) := by
  obtain ⟨-, -, -, -, -, -, -, -, e0, e1⟩ := idx_facts t
  refine funext fun a => Fin.ext ?_
  match a with
  | ⟨0, _⟩ => show win1_4.index t (0 : Fin 2) * 5000 + 1 * p.val = n.val; rw [e0, hn]; omega
  | ⟨1, _⟩ => show win1_4.index t (1 : Fin 2) * 64 + 1 * q.val = q.val; rw [e1]; omega

/-! ## What a point writes back, and the array -/

/-- What point `t` writes back is block `t` of `reg1` of the argument arrays as the region finds them. -/
theorem flushed_eq (t : Fin cfg1.N) :
    (dat1 (F := Ideal) V c).flushed 4 t
      = ((cfg1.win 4).blk t).view.read (Elt Ideal) (G1 (V c main_v40) (V c main_v17) (V c main_v25) (V c main_v28)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  funext j
  have hN : cfg1.N = 10 := N_1
  have ht : t.val < 10 := hN ▸ t.isLt
  obtain ⟨p, q, rfl⟩ : ∃ (p : Fin 5000) (q : Fin 64), (j : S5000x64.Idx) = ix2 p q := ⟨j 0, j 1, eq_ix2 j⟩
  obtain ⟨n, hn⟩ : ∃ n : Fin 50000, n.val = 5000 * t.val + p.val := ⟨⟨5000 * t.val + p.val, by have := p.isLt; omega⟩, rfl⟩
  show k1_pay1 (F := Ideal) (iblk1 V c 0 t) (iblk1 V c 1 t) (iblk1 V c 2 t) (iblk1 V c 3 t) (iblk1 V c 1 t) (ix2 p q)
    = G1 (V c main_v40) (V c main_v17) (V c main_v25) (V c main_v28) (((cfg1.win 4).blk t).view.emb (ix2 p q))
  rw [emb4 t p q n hn]
  refine (pay_apply _ _ _ _ _ p q).trans ?_
  show _ = reg1 (V c main_v40) (V c main_v17) (V c main_v25) (V c main_v28) n q
  unfold reg1 act1
  refine congrArg₂ (· * ·) (Finset.sum_congr rfl fun k _ => ?_) (rd1 V c t p n hn)
  exact congrArg₂ (· * ·) (congrArg₂ max (congrArg₂ (· + ·) (congrArg₂ (· * ·) (rd0 V c t p k n hn) (rd1 V c t p n hn)) (rd2 V c t k)) rfl)
    (rd3 V c t k q)

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v41).slice (win1_4.rect t)).set ↔ _
  rw [View.set_slice_whole, Rect.mem_set_unit]
  exact Iff.rfl

/-- Row `r` of the array is in the block of point `r / 5000`, which is written back. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

end Region

end R1

/-- The second kernel's result array after the region, element by element: `reg1` of the region's argument arrays. -/
theorem region1_value (V : (c : Dev nD) → (b : Ref sig .tc) → Buf (Elt Ideal) ((c : Thread nD τ).loc b)) (c : Dev nD) (n : Fin 50000) (o : Fin 64) :
    (dat1 (F := Ideal) V c).arrAt 4 cfg1.N (ix2 n o) = reg1 (V c main_v40) (V c main_v17) (V c main_v25) (V c main_v28) n o := by
  rw [(dat1 (F := Ideal) V c).arrAt_eq_of_cover 4 (R1.G1 (V c main_v40) (V c main_v17) (V c main_v25) (V c main_v28))
    (fun t _ => R1.flushed_eq V c t) R1.cover]
  rfl

end Cert.Gcn

end
-- ==== Proof.Region2.lean ====
import proofs.«167101_j2869038154062_2_alg».proof.Proof.Gen.KernelIdeal.Frame
import proofs.«167101_j2869038154062_2_alg».proof.Proof.Arrays
import Idealize.ShloMosaic.Lib.Pipeline.Value
import Idealize.ShloMosaic.Lib.ValueIdx
import Idealize.ShloMosaic.Lib.ValueLayout
import Idealize.ShloMosaic.PureOps.Ideal.Laws

/-! # The third kernel's output array

The third kernel scales each row of its 50000 × 64 operand by that row's entry of a column, adds a bias row, and divides
the row by its Euclidean norm bounded below by a constant. It works on ten blocks of 5000 rows; each block of the result
depends on the same block of the row-blocked operands and on the whole bias row, so the array the ten write-backs leave
is one function of the operand arrays, element by element. -/

set_option maxRecDepth 16384

noncomputable section

open scoped BigOperators

namespace Cert.Gcn

open Idealize.ShloMosaic Idealize.ShloMosaic.ValueIdx Idealize.ShloMosaic.TcCoe Idealize.SL.Sem Cert.KernelIdeal Cert.KernelIdeal.Gen

/-! ## Layout operations at an index -/

/-- A column of `a` rows broadcast to `a × b` reads, at `(p, c)`, the column's entry at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries cast to a column of `a` rows reads, at `(i, u)`, the vector's entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 64 lanes of a 5000 × 64 block, read at row `r`. -/
private theorem sum_lanes (src : FVec Ideal S5000x64 .f32) (h : S5000x64.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 64, src (ix2 r k) := by
  refine (Ideal.multiReduction_add_single src 0x00000000#32 h hφ hacc (ix1 r)).trans ?_
  show ∑ k : Fin 64, src (h.lift (ix1 r) k) = _
  refine Finset.sum_congr rfl fun k _ => congrArg src ?_
  funext a
  match a with
  | ⟨0, _⟩ => rfl
  | ⟨1, _⟩ => rfl

/-! ## The block the body stores, element by element -/

/-- The row before normalisation, on blocks: the operand's entry scaled by the row's entry of the column, plus the bias. -/
private def preB (x0 : Vec Ideal S5000x64 .f32) (x1 : Vec Ideal S5000x1 .f32) (x2 : Vec Ideal S1x64 .f32) (p : Fin 5000) (q : Fin 64) : EReal :=
  x0 (ix2 p q) * x1 (ix2 p (0 : Fin 1)) + x2 (ix2 (0 : Fin 1) q)

/-- The body's scaled and biased block at row `p`, column `q`. -/
private theorem pre_apply (x0 : Vec Ideal S5000x64 .f32) (x1 : Vec Ideal S5000x1 .f32) (x2 : Vec Ideal S1x64 .f32)
    (h1 : S5000x64.ShapeCasts S5000x64) (h2 : S5000x1.ShapeCasts S5000x1) (h3 : S5000x1.Broadcasts S5000x64)
    (h4 : S1x64.ShapeCasts S1x64) (h5 : S1x64.Broadcasts S5000x64) (p : Fin 5000) (q : Fin 64) :
    addf (F := Ideal) (φ := .f32) (mulf (shapeCast S5000x64 x0 h1) (broadcastTo S5000x64 (shapeCast S5000x1 x1 h2) h3))
        (broadcastTo S5000x64 (shapeCast S1x64 x2 h4) h5) (ix2 p q) = preB x0 x1 x2 p q := by
  rw [shapeCast_self, shapeCast_self, shapeCast_self]
  show x0 (ix2 p q) * broadcastTo S5000x64 x1 h3 (ix2 p q) + broadcastTo S5000x64 x2 h5 (ix2 p q) = _
  rw [broadcastTo_a1_ab_apply, broadcastTo_1b_ab_apply]
  rfl

/-- The stored block at row `p`, column `q`: the row before normalisation divided by its Euclidean norm bounded below. -/
private theorem pay_apply (x0 : Vec Ideal S5000x64 .f32) (x1 : Vec Ideal S5000x1 .f32) (x2 : Vec Ideal S1x64 .f32) (p : Fin 5000) (q : Fin 64) :
    k2_pay1 (F := Ideal) x0 x1 x2 (ix2 p q)
      = Ideal.div (preB x0 x1 x2 p q) (max (Ideal.sqrt (∑ o' : Fin 64, preB x0 x1 x2 p o' * preB x0 x1 x2 p o')) eps) := by
  unfold k2_pay1
  refine (divf_apply _ _ (ix2 p q)).trans ?_
  refine congrArg₂ Ideal.div (pre_apply x0 x1 x2 _ _ _ _ _ p q) ?_
  refine (broadcastTo_a1_ab_apply _ _ p q).trans ?_
  refine (maximumf_apply _ _ _).trans ?_
  refine congrArg₂ max ?_ rfl
  show Ideal.sqrt _ = _
  refine congrArg Ideal.sqrt ?_
  refine (shapeCast_a_a1_apply _ _ p (0 : Fin 1)).trans ?_
  refine (sum_lanes _ _ _ _ p).trans ?_
  refine Finset.sum_congr rfl fun k _ => ?_
  refine (mulf_apply _ _ _).trans ?_
  exact congrArg₂ (· * ·) (pre_apply x0 x1 x2 _ _ _ _ _ p k) (pre_apply x0 x1 x2 _ _ _ _ _ p k)

/-! ## Each window's block, read off its array -/

section Blocks

variable (V : (c : Dev nD) → (b : Ref sig .tc) → Buf (Elt Ideal) ((c : Thread nD τ).loc b))

private theorem hz : (![0, 0] : Fin 2 → Nat) = fun _ => 0 := funext fun a => by fin_cases a <;> rfl

/-- The index maps, decided over the ten grid points: the row-blocked windows sit at block `(t, 0)`, the bias row at `(0, 0)`. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The operand's block at point `t` is rows `5000 t … 5000 t + 4999` of the operand. -/
private theorem blk0_apply (c : Dev nD) (t : Fin cfg2.N) (x : S5000x64.Idx) (k : S50000x64.Idx)
    (hk0 : (k 0).val = 5000 * t.val + (x 0).val) (hk1 : (k 1).val = (x 1).val) :
    (iblk2 (F := Ideal) V c 0 t : Vec Ideal S5000x64 .f32) x = (V c main_v51 : S50000x64.Idx → Elt Ideal .f32) k := by
  obtain ⟨e0, e1, -⟩ := idx_facts t
  unfold iblk2
  rw [View.read_apply]
  show V c main_v51 _ = V c main_v51 _
  refine congrArg (V c main_v51) ?_
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The column's block at point `t` is rows `5000 t … 5000 t + 4999` of the column. -/
private theorem blk1_apply (c : Dev nD) (t : Fin cfg2.N) (x : S5000x1.Idx) (k : S50000x1.Idx)
    (hk0 : (k 0).val = 5000 * t.val + (x 0).val) (hk1 : (k 1).val = (x 1).val) :
    (iblk2 (F := Ideal) V c 1 t : Vec Ideal S5000x1 .f32) x = (V c main_v17 : S50000x1.Idx → Elt Ideal .f32) k := by
  obtain ⟨-, -, e0, e1, -⟩ := idx_facts t
  unfold iblk2
  rw [View.read_apply]
  show V c main_v17 _ = V c main_v17 _
  refine congrArg (V c main_v17) ?_
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias row's block at every point is the whole row. -/
private theorem blk2_apply (c : Dev nD) (t : Fin cfg2.N) (x : S1x64.Idx) :
    (iblk2 (F := Ideal) V c 2 t : Vec Ideal S1x64 .f32) x = (V c main_v29 : S1x64.Idx → Elt Ideal .f32) x := by
  obtain ⟨-, -, -, -, e0, e1, -⟩ := idx_facts t
  unfold iblk2
  rw [View.read_apply]
  show V c main_v29 _ = V c main_v29 _
  refine congrArg (V c main_v29) ?_
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

end Blocks

/-! ## The output array -/

section Value

variable (V : (c : Dev nD) → (b : Ref sig .tc) → Buf (Elt Ideal) ((c : Thread nD τ).loc b))

/-- The output array as one function of the operand arrays, element by element. -/
private def G (c : Dev nD) : S50000x64.Idx → EReal := fun i =>
  reg2 (V c main_v51) (V c main_v17) (V c main_v29) ⟨(i 0).val, idx2_lt0 i⟩ ⟨(i 1).val, idx2_lt1 i⟩

/-- The row before normalisation, on the blocks at point `t`, is that of the arrays at row `5000 t + p`. -/
private theorem pre_blk (c : Dev nD) (t : Fin cfg2.N) (p : Fin 5000) (n : Fin 50000) (hn : n.val = 5000 * t.val + p.val) (q : Fin 64) :
    preB (iblk2 (F := Ideal) V c 0 t) (iblk2 (F := Ideal) V c 1 t) (iblk2 (F := Ideal) V c 2 t) p q
      = pre2 (V c main_v51) (V c main_v17) (V c main_v29) n q := by
  unfold preB pre2
  rw [blk0_apply V c t (ix2 p q) (ix2 n q) hn rfl, blk1_apply V c t (ix2 p (0 : Fin 1)) (ix2 n (0 : Fin 1)) hn rfl,
    blk2_apply V c t (ix2 (0 : Fin 1) q)]

/-- What point `t` writes back is block `t` of that function. -/
private theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, e0, e1⟩ := idx_facts t
  have ht : t.val < 10 := Nat.lt_of_lt_of_eq t.isLt N_2
  have hn : 5000 * t.val + p.val < 50000 := by have := p.isLt; omega
  have hemb : ((cfg2.win 3).blk t).view.emb (ix2 p q) = ix2 (⟨5000 * t.val + p.val, hn⟩ : Fin 50000) q := by
    funext a
    apply Fin.ext
    match a with
    | ⟨0, _⟩ => show win2_3.index t 0 * 5000 + 1 * p.val = 5000 * t.val + p.val; rw [e0]; omega
    | ⟨1, _⟩ => show win2_3.index t 1 * 64 + 1 * q.val = q.val; rw [e1]; omega
  show k2_pay1 (F := Ideal) (iblk2 V c 0 t) (iblk2 V c 1 t) (iblk2 V c 2 t) (ix2 p q) = G V c (((cfg2.win 3).blk t).view.emb (ix2 p q))
  rw [hemb, pay_apply]
  show _ = reg2 (V c main_v51) (V c main_v17) (V c main_v29) ⟨5000 * t.val + p.val, hn⟩ q
  unfold reg2
  simp only [pre_blk V c t p ⟨5000 * t.val + p.val, hn⟩ rfl]

/-- An index of the array is in point `t`'s block iff each coordinate is in the block's range on its axis. -/
private theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v52).slice (win2_3.rect t)).set ↔ _
  rw [View.set_slice_whole, Rect.mem_set_unit]
  exact Iff.rfl

/-- Every row `r` of the array is in the block of point `r / 5000`. -/
private theorem cover (i : S50000x64.Idx) :
    ∃ t : Fin cfg2.N, (cfg2.win 3).flush t = true ∧ i ∈ ((cfg2.win 3).blk t).view.set := by
  have hi0 : (i 0).val < 50000 := idx2_lt0 i
  have hi1 : (i 1).val < 64 := idx2_lt1 i
  obtain ⟨t, ht⟩ : ∃ t : Fin cfg2.N, t.val = (i 0).val / 5000 :=
    ⟨⟨(i 0).val / 5000, Nat.lt_of_lt_of_eq (by omega : (i 0).val / 5000 < 10) N_2.symm⟩, rfl⟩
  obtain ⟨-, -, -, -, -, -, e0, e1⟩ := idx_facts t
  refine ⟨t, flush2_3 t, ?_⟩
  rw [mem_blk]
  intro a
  match a with
  | ⟨0, _⟩ => show win2_3.index t 0 * 5000 ≤ (i 0).val ∧ (i 0).val < win2_3.index t 0 * 5000 + 5000; rw [e0, ht]; omega
  | ⟨1, _⟩ => show win2_3.index t 1 * 64 ≤ (i 1).val ∧ (i 1).val < win2_3.index t 1 * 64 + 64; rw [e1]; omega

/-- THE OUTPUT ARRAY after the region's ten write-backs, element by element. -/
theorem region2_value (c : Dev nD) (n : Fin 50000) (o : Fin 64) :
    (dat2 (F := Ideal) V c).arrAt 3 cfg2.N (ix2 n o) = reg2 (V c main_v51) (V c main_v17) (V c main_v29) n o :=
  congrFun ((dat2 (F := Ideal) V c).arrAt_eq_of_cover 3 (G V c) (fun t _ => flushed_eq V c t) cover) (ix2 n o)

end Value

end Cert.Gcn

end
-- ==== Proof.KPersist.lean ====
import proofs.«167101_j2869038154062_2_alg».proof.Proof.KHost0
import proofs.«167101_j2869038154062_2_alg».proof.Proof.KHost12
import proofs.«167101_j2869038154062_2_alg».proof.Proof.Region0
import proofs.«167101_j2869038154062_2_alg».proof.Proof.Region1
import proofs.«167101_j2869038154062_2_alg».proof.Proof.Region2

/-! # Each buffer the later kernels read, walked back to where it was written

A kernel reads its operands as the buffers stand when it is entered. A buffer is rewritten only by the host
operation or the kernel whose result it is; through every other stretch of host operations, and through a kernel of
which it is an input or no operand at all, it keeps its contents. So the scale column, the widened weights and biases
and the two index arrays reach the second and third kernels as the launch-side operations left them, and each
kernel's result is its whole-array function of what it found. -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

open Idealize.ShloMosaic.ValueIdx
open Cert.Gcn (region0_value region1_value region2_value)

variable (m : (ℓ : Loc nD τ sig) → Buf (Elt Ideal) ℓ) (ρ : Dev nD → PrngReg) (c : Dev nD)

/-! ## Through the first kernel -/

theorem W4_v17 : W4 m ρ c (Proc.devRef .tc main_v17) = W3 m ρ c (Proc.devRef .tc main_v17) :=
  (W4_arr m ρ c 2).trans (((dat0 (V3 m ρ) c).arrAt_in 2 rfl _).trans (A_eq0 (V3 m ρ) c 2))

theorem W4_v30 (r : Fin 50000) (j : Fin 128) : W4 m ρ c (Proc.devRef .tc main_v30) (ix2 r j)
    = Cert.Gcn.reg0 (V3 m ρ c main_arg0) (V3 m ρ c main_v20) (V3 m ρ c main_v17) r j :=
  (congrFun (W4_arr m ρ c 3) (ix2 r j)).trans (region0_value (V3 m ρ) c r j)

/-! ## Through the stretch before the second kernel -/

theorem W5_v17 : W5 m ρ c (Proc.devRef .tc main_v17) = W3 m ρ c (Proc.devRef .tc main_v17) :=
  (StableHlo.after_of_forall_not_mem (b := Proc.devRef .tc main_v17) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_v17 m ρ c)

theorem W5_v25 : W5 m ρ c (Proc.devRef .tc main_v25) = W3 m ρ c (Proc.devRef .tc main_v25) :=
  (StableHlo.after_of_forall_not_mem (b := Proc.devRef .tc main_v25) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_of_ne m ρ c main_v25 (by decide))

theorem W5_v28 : W5 m ρ c (Proc.devRef .tc main_v28) = W3 m ρ c (Proc.devRef .tc main_v28) :=
  (StableHlo.after_of_forall_not_mem (b := Proc.devRef .tc main_v28) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_of_ne m ρ c main_v28 (by decide))

theorem W5_v29 : W5 m ρ c (Proc.devRef .tc main_v29) = W3 m ρ c (Proc.devRef .tc main_v29) :=
  (StableHlo.after_of_forall_not_mem (b := Proc.devRef .tc main_v29) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_of_ne m ρ c main_v29 (by decide))

theorem W5_v3 : W5 m ρ c (Proc.devRef .tc main_v3) = W3 m ρ c (Proc.devRef .tc main_v3) :=
  (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_of_ne m ρ c main_v3 (by decide))

theorem W5_v6 : W5 m ρ c (Proc.devRef .tc main_v6) = W3 m ρ c (Proc.devRef .tc main_v6) :=
  (StableHlo.after_of_forall_not_mem (b := Proc.devRef .tc main_v6) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_of_ne m ρ c main_v6 (by decide))

theorem W5_v40 : W5 m ρ c (Proc.devRef .tc main_v40)
    = agg128 (W3 m ρ c (Proc.devRef .tc main_v3)) (W3 m ρ c (Proc.devRef .tc main_v6)) (W4 m ρ c (Proc.devRef .tc main_v30)) := by
  show StableHlo.after hostOps1 (W4 m ρ c) _ = _
  rw [hostOps1_v40, W4_of_ne m ρ c main_v3 (by decide), W4_of_ne m ρ c main_v6 (by decide)]

/-! ## Through the second kernel -/

theorem W6_v17 : W6 m ρ c (Proc.devRef .tc main_v17) = W3 m ρ c (Proc.devRef .tc main_v17) :=
  ((W6_arr m ρ c 1).trans (((dat1 (V5 m ρ) c).arrAt_in 1 rfl _).trans (A_eq1 (V5 m ρ) c 1))).trans (W5_v17 m ρ c)

theorem W6_v41 (r : Fin 50000) (o : Fin 64) : W6 m ρ c (Proc.devRef .tc main_v41) (ix2 r o)
    = Cert.Gcn.reg1 (V5 m ρ c main_v40) (V5 m ρ c main_v17) (V5 m ρ c main_v25) (V5 m ρ c main_v28) r o :=
  (congrFun (W6_arr m ρ c 4) (ix2 r o)).trans (region1_value (V5 m ρ) c r o)

/-! ## Through the stretch before the third kernel -/

theorem W7_v17 : W7 m ρ c (Proc.devRef .tc main_v17) = W3 m ρ c (Proc.devRef .tc main_v17) :=
  (StableHlo.after_of_forall_not_mem (b := Proc.devRef .tc main_v17) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W6_v17 m ρ c)

theorem W7_v29 : W7 m ρ c (Proc.devRef .tc main_v29) = W3 m ρ c (Proc.devRef .tc main_v29) :=
  ((StableHlo.after_of_forall_not_mem (b := Proc.devRef .tc main_v29) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W6_of_ne m ρ c main_v29 (by decide))).trans (W5_v29 m ρ c)

theorem W7_v51 : W7 m ρ c (Proc.devRef .tc main_v51)
    = agg64 (W3 m ρ c (Proc.devRef .tc main_v3)) (W3 m ρ c (Proc.devRef .tc main_v6)) (W6 m ρ c (Proc.devRef .tc main_v41)) := by
  show StableHlo.after hostOps2 (W6 m ρ c) _ = _
  rw [hostOps2_v51, W6_of_ne m ρ c main_v3 (by decide), W6_of_ne m ρ c main_v6 (by decide), W5_v3, W5_v6]

/-! ## Through the third kernel -/

theorem W8_v52 (n : Fin 50000) (o : Fin 64) : W8 m ρ c (Proc.devRef .tc main_v52) (ix2 n o)
    = Cert.Gcn.reg2 (V7 m ρ c main_v51) (V7 m ρ c main_v17) (V7 m ρ c main_v29) n o :=
  (congrFun (W8_arr m ρ c 3) (ix2 n o)).trans (region2_value (V7 m ρ) c n o)

end Cert.KernelIdeal.Gen

end
-- ==== Proof.LibScatter.lean ====
import Idealize.ShloMosaic.PureOps.Ideal

/-! # Where a scatter's update lands, for any dimension numbers

An update lands at an operand index exactly when, on every operand axis, its start (read as a signed integer and
not clamped) plus its window coordinate is that index's coordinate; otherwise it is dropped. And the accumulating
float scatter, on the extended reals, is the operand plus the exact sum of the updates that land. -/

noncomputable section

namespace Cert.Gcn

open Idealize.ShloMosaic

/-- An update lands at operand index `i` exactly when, on every operand axis, its start (read signed, not clamped)
    plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hc
      have h1 := congrFun (Option.some.inj h) a
      have hv := congrArg Fin.val h1
      simp only at hv
      have := hc a
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    apply Fin.ext
    have := h a
    simp only
    omega

/-- On the extended reals the accumulating scatter is the exact sum of the landing updates on top of the operand. -/
theorem scatterAdd_ideal {s si su : Shape} {φ : FTy} (d : ScatterDims s si su) {w : Nat} (x : FVec Ideal s φ)
    (idx : IVec si w) (upd : FVec Ideal su φ) :
    Host.scatterAdd d x idx upd = Ideal.hostScatterAdd d x idx upd := rfl

end Cert.Gcn

end
-- ==== Proof.Pads.lean ====
import proofs.«167101_j2869038154062_2_alg».proof.Proof.Gen.KernelIdeal
import proofs.«167101_j2869038154062_2_alg».proof.Proof.Arrays
import proofs.«167101_j2869038154062_2_alg».proof.Proof.LibScatter
import Idealize.ShloMosaic.Lib.ValueIdx
import Idealize.ShloMosaic.PureOps.Ideal

/-! # Zero-padding by a window write, read at one index

The kernel program widens three small arrays with zeros: it writes the array as one window, at start index 0, into a
larger array. The result holds the small array where the window lies and the larger array's old contents elsewhere. -/

noncomputable section

namespace Cert.Gcn

open Idealize.ShloMosaic Idealize.ShloMosaic.ValueIdx

/-- One step of the overwriting fold: the update numbered `n` replaces the element it lands at, if it lands. -/
private def setStep {s si u : Shape} {α : Type} {w : Nat} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

private theorem setStep_miss {s si u : Shape} {α : Type} {w : Nat} (d : ScatterDims s si u) (idx : IVec si w)
    (upd : u.Idx → α) (r : s.Idx → α) (n : Fin u.numel) (i : s.Idx)
    (h : d.resultIdx? (u.rowMajor.symm n) idx ≠ some i) : setStep d idx upd r n i = r i := by
  unfold setStep
  generalize d.resultIdx? (u.rowMajor.symm n) idx = o at h
  cases o with
  | none => rfl
  | some i0 =>
    have : i ≠ i0 := fun e => h (e ▸ rfl)
    simp only [if_neg this]

private theorem setStep_hit {s si u : Shape} {α : Type} {w : Nat} (d : ScatterDims s si u) (idx : IVec si w)
    (upd : u.Idx → α) (r : s.Idx → α) (n : Fin u.numel) (i : s.Idx)
    (h : d.resultIdx? (u.rowMajor.symm n) idx = some i) : setStep d idx upd r n i = upd (u.rowMajor.symm n) := by
  unfold setStep
  rw [h]
  simp only [if_true]

/-- Over any list of update numbers none of which lands at `i`, the fold leaves the element at `i` alone. -/
private theorem fold_miss {s si u : Shape} {α : Type} {w : Nat} (d : ScatterDims s si u) (idx : IVec si w)
    (upd : u.Idx → α) (i : s.Idx) (l : List (Fin u.numel)) (x : s.Idx → α)
    (h : ∀ n ∈ l, d.resultIdx? (u.rowMajor.symm n) idx ≠ some i) : l.foldl (setStep d idx upd) x i = x i := by
  induction l generalizing x with
  | nil => rfl
  | cons n l ih =>
    rw [List.foldl_cons, ih _ (fun m hm => h m (List.mem_cons_of_mem _ hm))]
    exact setStep_miss d idx upd x n i (h n List.mem_cons_self)

/-- Over any list of update numbers that contains `n0`, the only one landing at `i`, the fold holds update `n0` at `i`. -/
private theorem fold_hit {s si u : Shape} {α : Type} {w : Nat} (d : ScatterDims s si u) (idx : IVec si w)
    (upd : u.Idx → α) (i : s.Idx) (n0 : Fin u.numel) (h0 : d.resultIdx? (u.rowMajor.symm n0) idx = some i)
    (l : List (Fin u.numel)) (x : s.Idx → α)
    (h : ∀ n ∈ l, d.resultIdx? (u.rowMajor.symm n) idx = some i → n = n0) (hm : n0 ∈ l) :
    l.foldl (setStep d idx upd) x i = upd (u.rowMajor.symm n0) := by
  induction l generalizing x with
  | nil => exact absurd hm (List.not_mem_nil)
  | cons n l ih =>
    rw [List.foldl_cons]
    by_cases hl : n0 ∈ l
    · exact ih _ (fun m hm' => h m (List.mem_cons_of_mem _ hm')) hl
    · have hn : n0 = n := by
        rcases List.mem_cons.1 hm with e | e
        · exact e
        · exact absurd e hl
      subst hn
      rw [fold_miss d idx upd i l _ (fun m hm' e => hl ((h m (List.mem_cons_of_mem _ hm') e) ▸ hm'))]
      exact setStep_hit d idx upd x n0 i h0

private theorem scatter_eq_fold {s si u : Shape} {α : Type} {w : Nat} (d : ScatterDims s si u) (x : s.Idx → α)
    (idx : IVec si w) (upd : u.Idx → α) :
    Host.scatter d (fun _ b => b) x idx upd = (List.finRange u.numel).foldl (setStep d idx upd) x := rfl

/-- The overwriting scatter at an index where exactly one update lands holds that update. -/
private theorem scatter_set_hit {s si u : Shape} {α : Type} {w : Nat} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  rw [scatter_eq_fold]
  have h0 : d.resultIdx? (u.rowMajor.symm (u.rowMajor j)) idx = some i := by rw [Equiv.symm_apply_apply]; exact hj
  rw [fold_hit d idx upd i (u.rowMajor j) h0 _ x
    (fun n _ e => by rw [← huniq _ e, Equiv.apply_symm_apply]) (List.mem_finRange _), Equiv.symm_apply_apply]

/-- The overwriting scatter at an index where no update lands holds the operand's element. -/
private theorem scatter_set_miss {s si u : Shape} {α : Type} {w : Nat} (d : ScatterDims s si u) (x : s.Idx → α)
    (idx : IVec si w) (upd : u.Idx → α) (i : s.Idx) (h : ∀ j', d.resultIdx? j' idx ≠ some i) :
    Host.scatter d (fun _ b => b) x idx upd i = x i := by
  rw [scatter_eq_fold]
  exact fold_miss d idx upd i _ x (fun n _ => h _)

/-- The scatter indices' shape with one entry has one index. -/
private theorem idx1_eq (q : (⟨1, ![1]⟩ : Shape).Idx) : q = ix1 0 :=
  (eq_ix1 q).trans (congrArg ix1 (Subsingleton.elim (α := Fin 1) _ _))

/-- With start 0, update `(a, b)` of the 128 × 100 window lands at `(a, b)`. -/
private theorem land1 (i : IVec (⟨1, ![1]⟩ : Shape) 32) (hi : i (ix1 0) = 0#32) (j' : (⟨2, ![128, 100]⟩ : Shape).Idx)
    (t : (⟨2, ![128, 128]⟩ : Shape).Idx) :
    Cert.KernelIdeal.scatter_S128x128_S1_S128x100_01_n_1_0.resultIdx? j' i = some t
      ↔ (j' 0).val = (t 0).val ∧ (j' 1).val = (t 1).val := by
  rw [resultIdx?_eq_some_iff]
  have hs0 : Cert.KernelIdeal.scatter_S128x128_S1_S128x100_01_n_1_0.start j' i 0 = 0 := rfl
  have hs1 : Cert.KernelIdeal.scatter_S128x128_S1_S128x100_01_n_1_0.start j' i 1 = 0 := by
    show (i _).toInt = 0
    rw [idx1_eq (Cert.KernelIdeal.scatter_S128x128_S1_S128x100_01_n_1_0.siIdx j' _), hi]
    rfl
  have hw0 : Cert.KernelIdeal.scatter_S128x128_S1_S128x100_01_n_1_0.window j' 0 = (j' 0).val := rfl
  have hw1 : Cert.KernelIdeal.scatter_S128x128_S1_S128x100_01_n_1_0.window j' 1 = (j' 1).val := rfl
  constructor
  · intro h
    have h0 := h 0
    have h1 := h 1
    rw [hs0, hw0] at h0
    rw [hs1, hw1] at h1
    omega
  · intro h a
    match a with
    | ⟨0, _⟩ =>
      exact (by rw [hs0, hw0]; omega : Cert.KernelIdeal.scatter_S128x128_S1_S128x100_01_n_1_0.start j' i 0
        + (Cert.KernelIdeal.scatter_S128x128_S1_S128x100_01_n_1_0.window j' 0 : Int) = ((t 0).val : Int))
    | ⟨1, _⟩ =>
      exact (by rw [hs1, hw1]; omega : Cert.KernelIdeal.scatter_S128x128_S1_S128x100_01_n_1_0.start j' i 1
        + (Cert.KernelIdeal.scatter_S128x128_S1_S128x100_01_n_1_0.window j' 1 : Int) = ((t 1).val : Int))

/-- With start (0, 0), update `b` of the row of 100 lands at `(0, b)`. -/
private theorem land2 (i : IVec (⟨1, ![2]⟩ : Shape) 32) (hi0 : i (ix1 0) = 0#32) (hi1 : i (ix1 1) = 0#32)
    (j' : (⟨1, ![100]⟩ : Shape).Idx) (t : (⟨2, ![1, 128]⟩ : Shape).Idx) :
    Cert.KernelIdeal.scatter_S1x128_S2_S100_0_0_01_0.resultIdx? j' i = some t ↔ (j' 0).val = (t 1).val := by
  rw [resultIdx?_eq_some_iff]
  have hs0 : Cert.KernelIdeal.scatter_S1x128_S2_S100_0_0_01_0.start j' i 0 = 0 := by
    show (i _).toInt = 0
    rw [eq_ix1 (Cert.KernelIdeal.scatter_S1x128_S2_S100_0_0_01_0.siIdx j' _)]
    exact congrArg BitVec.toInt hi0
  have hs1 : Cert.KernelIdeal.scatter_S1x128_S2_S100_0_0_01_0.start j' i 1 = 0 := by
    show (i _).toInt = 0
    rw [eq_ix1 (Cert.KernelIdeal.scatter_S1x128_S2_S100_0_0_01_0.siIdx j' _)]
    exact congrArg BitVec.toInt hi1
  have hw0 : Cert.KernelIdeal.scatter_S1x128_S2_S100_0_0_01_0.window j' 0 = 0 := rfl
  have hw1 : Cert.KernelIdeal.scatter_S1x128_S2_S100_0_0_01_0.window j' 1 = (j' 0).val := rfl
  have ht0 : (t 0).val = 0 := by have := idx2_lt0 t; omega
  constructor
  · intro h
    have h1 := h 1
    rw [hs1, hw1] at h1
    omega
  · intro h a
    match a with
    | ⟨0, _⟩ =>
      exact (by rw [hs0, hw0]; omega : Cert.KernelIdeal.scatter_S1x128_S2_S100_0_0_01_0.start j' i 0
        + (Cert.KernelIdeal.scatter_S1x128_S2_S100_0_0_01_0.window j' 0 : Int) = ((t 0).val : Int))
    | ⟨1, _⟩ =>
      exact (by rw [hs1, hw1]; omega : Cert.KernelIdeal.scatter_S1x128_S2_S100_0_0_01_0.start j' i 1
        + (Cert.KernelIdeal.scatter_S1x128_S2_S100_0_0_01_0.window j' 1 : Int) = ((t 1).val : Int))

/-- With start 0, update `(a, b)` of the 100 × 64 window lands at `(a, b)`. -/
private theorem land3 (i : IVec (⟨1, ![1]⟩ : Shape) 32) (hi : i (ix1 0) = 0#32) (j' : (⟨2, ![100, 64]⟩ : Shape).Idx)
    (t : (⟨2, ![128, 64]⟩ : Shape).Idx) :
    Cert.KernelIdeal.scatter_S128x64_S1_S100x64_01_n_0_0.resultIdx? j' i = some t
      ↔ (j' 0).val = (t 0).val ∧ (j' 1).val = (t 1).val := by
  rw [resultIdx?_eq_some_iff]
  have hs0 : Cert.KernelIdeal.scatter_S128x64_S1_S100x64_01_n_0_0.start j' i 0 = 0 := by
    show (i _).toInt = 0
    rw [idx1_eq (Cert.KernelIdeal.scatter_S128x64_S1_S100x64_01_n_0_0.siIdx j' _), hi]
    rfl
  have hs1 : Cert.KernelIdeal.scatter_S128x64_S1_S100x64_01_n_0_0.start j' i 1 = 0 := rfl
  have hw0 : Cert.KernelIdeal.scatter_S128x64_S1_S100x64_01_n_0_0.window j' 0 = (j' 0).val := rfl
  have hw1 : Cert.KernelIdeal.scatter_S128x64_S1_S100x64_01_n_0_0.window j' 1 = (j' 1).val := rfl
  constructor
  · intro h
    have h0 := h 0
    have h1 := h 1
    rw [hs0, hw0] at h0
    rw [hs1, hw1] at h1
    omega
  · intro h a
    match a with
    | ⟨0, _⟩ =>
      exact (by rw [hs0, hw0]; omega : Cert.KernelIdeal.scatter_S128x64_S1_S100x64_01_n_0_0.start j' i 0
        + (Cert.KernelIdeal.scatter_S128x64_S1_S100x64_01_n_0_0.window j' 0 : Int) = ((t 0).val : Int))
    | ⟨1, _⟩ =>
      exact (by rw [hs1, hw1]; omega : Cert.KernelIdeal.scatter_S128x64_S1_S100x64_01_n_0_0.start j' i 1
        + (Cert.KernelIdeal.scatter_S128x64_S1_S100x64_01_n_0_0.window j' 1 : Int) = ((t 1).val : Int))

/-- A 128 × 100 window written at column 0 of a 128 × 128 array. -/
theorem padW1_apply (z : Arr2 128 128) (i : IVec (⟨1, ![1]⟩ : Shape) 32) (hi : i (ix1 0) = 0#32) (u : Arr2 128 100)
    (k j : Fin 128) :
    Host.scatter Cert.KernelIdeal.scatter_S128x128_S1_S128x100_01_n_1_0 (fun _ b => b) z i u (ix2 k j)
      = if h : j.val < 100 then u (ix2 k ⟨j.val, h⟩) else z (ix2 k j) := by
  by_cases h : j.val < 100
  · rw [dif_pos h]
    refine scatter_set_hit _ z i u (ix2 k j) (ix2 k ⟨j.val, h⟩) ((land1 i hi _ _).2 ⟨rfl, rfl⟩) (fun j' hj' => ?_)
    have := (land1 i hi _ _).1 hj'
    rw [eq_ix2 j']
    congr 1
    · exact Fin.ext this.1
    · exact Fin.ext this.2
  · rw [dif_neg h]
    refine scatter_set_miss _ z i u (ix2 k j) (fun j' hj' => ?_)
    have := (land1 i hi _ _).1 hj'
    have hlt := idx2_lt1 j'
    exact h (this.2 ▸ hlt)

/-- A row of 100 written at row 0, column 0 of a 1 × 128 array. -/
theorem padB1_apply (z : Arr2 1 128) (i : IVec (⟨1, ![2]⟩ : Shape) 32) (hi0 : i (ix1 0) = 0#32) (hi1 : i (ix1 1) = 0#32)
    (u : (⟨1, ![100]⟩ : Shape).Idx → EReal) (j : Fin 128) :
    Host.scatter Cert.KernelIdeal.scatter_S1x128_S2_S100_0_0_01_0 (fun _ b => b) z i u (ix2 0 j)
      = if h : j.val < 100 then u (ix1 ⟨j.val, h⟩) else z (ix2 0 j) := by
  by_cases h : j.val < 100
  · rw [dif_pos h]
    refine scatter_set_hit _ z i u (ix2 0 j) (ix1 ⟨j.val, h⟩) ((land2 i hi0 hi1 _ _).2 rfl) (fun j' hj' => ?_)
    have := (land2 i hi0 hi1 _ _).1 hj'
    rw [eq_ix1 j']
    congr 1
    exact Fin.ext this
  · rw [dif_neg h]
    refine scatter_set_miss _ z i u (ix2 0 j) (fun j' hj' => ?_)
    have := (land2 i hi0 hi1 _ _).1 hj'
    have hlt : (j' 0).val < 100 := (j' 0).isLt
    exact h (this ▸ hlt)

/-- A 100 × 64 window written at row 0 of a 128 × 64 array. -/
theorem padW2_apply (z : Arr2 128 64) (i : IVec (⟨1, ![1]⟩ : Shape) 32) (hi : i (ix1 0) = 0#32) (u : Arr2 100 64)
    (j : Fin 128) (o : Fin 64) :
    Host.scatter Cert.KernelIdeal.scatter_S128x64_S1_S100x64_01_n_0_0 (fun _ b => b) z i u (ix2 j o)
      = if h : j.val < 100 then u (ix2 ⟨j.val, h⟩ o) else z (ix2 j o) := by
  by_cases h : j.val < 100
  · rw [dif_pos h]
    refine scatter_set_hit _ z i u (ix2 j o) (ix2 ⟨j.val, h⟩ o) ((land3 i hi _ _).2 ⟨rfl, rfl⟩) (fun j' hj' => ?_)
    have := (land3 i hi _ _).1 hj'
    rw [eq_ix2 j']
    congr 1
    · exact Fin.ext this.1
    · exact Fin.ext this.2
  · rw [dif_neg h]
    refine scatter_set_miss _ z i u (ix2 j o) (fun j' hj' => ?_)
    have := (land3 i hi _ _).1 hj'
    have hlt := idx2_lt0 j'
    exact h (this.1 ▸ hlt)

end Cert.Gcn

end
-- ==== Proof.Rows.lean ====
import proofs.«167101_j2869038154062_2_alg».proof.Proof.Gen.KernelIdeal
import proofs.«167101_j2869038154062_2_alg».proof.Proof.Gen.ReferenceIdeal
import proofs.«167101_j2869038154062_2_alg».proof.Proof.Arrays
import proofs.«167101_j2869038154062_2_alg».proof.Proof.LibScatter
import Idealize.ShloMosaic.Lib.ValueIdx
import Idealize.ShloMosaic.PureOps.Ideal

/-! # Gathers of rows and scatter-adds of rows, read at one index

A gather of rows reads, for edge `e`, the row its start index names (read signed, clamped into the table). A
scatter-add of rows adds row `e` of the updates into the row its scatter index names, read signed and NOT clamped: an
index outside the table drops the row. So the result at row `n` is the operand there plus the sum over the edges whose
index IS `n`. One statement per printed dimension record. -/

noncomputable section

open scoped BigOperators

namespace Cert.Gcn

open Idealize.ShloMosaic Idealize.ShloMosaic.ValueIdx

/-- The start or scatter indices of the edges: one 32-bit integer per edge, as an 850000 × 1 array. -/
abbrev EdgeIdx : Type := IVec (⟨2, ![850000, 1]⟩ : Shape) 32

/-- The edges whose scatter index, read signed, is exactly node `n`. -/
def landing (idx : EdgeIdx) (n : Fin 50000) : Finset (Fin 850000) :=
  Finset.univ.filter (fun e => (idx (ix2 e 0)).toInt = (n.val : Int))

/-! ## The two shapes of record, once -/

/-- The dimension numbers of a gather of rows out of a table of `N` rows of width `F`, one start index per row read. -/
private abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- A gather of rows reads, at row `e` and column `f`, column `f` of the row that start index `e` names, the index
    read signed and clamped into the table. -/
private theorem rowGather_apply {α : Type} {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec (⟨2, ![E, 1]⟩ : Shape) w) (e : Fin E) (f : Fin F) :
    Host.gather (rowGather N E F wf) x idx (ix2 e f)
      = x (ix2 ⟨min (idx (ix2 e 0)).toInt.toNat (N - 1), by omega⟩ f) := by
  unfold Host.gather
  congr 1
  funext a
  refine Fin.ext ?_
  match a with
  | ⟨0, _⟩ =>
    show (rowGather N E F wf).start (ix2 e f) idx 0 + (rowGather N E F wf).batchCoord (ix2 e f) 0
      + (rowGather N E F wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
      + (rowGather N E F wf).offCoord (ix2 e f) 1 = f.val
    rw [GatherDims.batchCoord_eq_zero _ _ _ List.not_mem_nil]
    have hs : (rowGather N E F wf).start (ix2 e f) idx 1 = 0 := by
      unfold GatherDims.start
      rw [dif_neg (show (1 : Fin 2) ∉ ([0] : List (Fin 2)) by decide)]
    rw [hs]
    unfold GatherDims.offCoord
    rw [dif_pos ((GatherDims.mem_sKept _ _).mpr ⟨show (1 : Fin 2) ∉ ([0] : List (Fin 2)) by decide, List.not_mem_nil⟩)]
    simp only [Nat.add_zero, Nat.zero_add]
    rfl

/-- The dimension numbers of a scatter of rows of width `F` into a table of `N` rows, one scatter index per row. -/
private abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

section RowScatter

variable {N E F w : Nat} (wf : ScatterDims.WF ⟨2, ![N, F]⟩ ⟨2, ![E, 1]⟩ ⟨2, ![E, F]⟩ [1] [0] [0] 1)
  (idx : IVec (⟨2, ![E, 1]⟩ : Shape) w) (e : Fin E) (f' : Fin F)

/-- On the scattered axis the window starts at row `e`'s scatter index, read signed. -/
private theorem rowScatter_start0 : (rowScatter N E F wf).start (ix2 e f') idx 0 = (idx (ix2 e 0)).toInt := by
  unfold ScatterDims.start
  rw [dif_pos (show (0 : Fin 2) ∈ (rowScatter N E F wf).scatterDimsToOperandDims from List.mem_singleton.mpr rfl)]
  have hsi : (rowScatter N E F wf).siIdx (ix2 e f') ⟨List.idxOf (0 : Fin 2) (rowScatter N E F wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0. -/
private theorem rowScatter_start1 : (rowScatter N E F wf).start (ix2 e f') idx 1 = 0 := by
  unfold ScatterDims.start
  rw [dif_neg (show (1 : Fin 2) ∉ ([0] : List (Fin 2)) by decide)]

/-- The scattered axis is an inserted one: no window coordinate. -/
private theorem rowScatter_window0 : (rowScatter N E F wf).window (ix2 e f') 0 = 0 := by
  unfold ScatterDims.window
  rw [dif_neg]
  simp [ScatterDims.sKept, Shape.kept, List.mem_filter]

/-- On the column axis the window coordinate is the update's column. -/
private theorem rowScatter_window1 : (rowScatter N E F wf).window (ix2 e f') 1 = f'.val := by
  unfold ScatterDims.window
  rw [dif_pos (by simp [ScatterDims.sKept, Shape.kept, List.mem_filter, List.mem_finRange])]
  rfl

/-- Update `(e, f')` lands at `(n, f)` exactly when row `e`'s scatter index, read signed, is `n` and the columns agree. -/
private theorem rowScatter_lands (n : Fin N) (f : Fin F) :
    (rowScatter N E F wf).resultIdx? (ix2 e f') idx = some (ix2 n f)
      ↔ (idx (ix2 e 0)).toInt = (n.val : Int) ∧ f' = f := by
  rw [resultIdx?_eq_some_iff]
  constructor
  · intro h
    have h0 : (rowScatter N E F wf).start (ix2 e f') idx 0 + ((rowScatter N E F wf).window (ix2 e f') 0 : Int)
        = (n.val : Int) := h 0
    have h1 : (rowScatter N E F wf).start (ix2 e f') idx 1 + ((rowScatter N E F wf).window (ix2 e f') 1 : Int)
        = (f.val : Int) := h 1
    rw [rowScatter_start0, rowScatter_window0] at h0
    rw [rowScatter_start1, rowScatter_window1] at h1
    exact ⟨by omega, Fin.ext (by omega)⟩
  · rintro ⟨h0, rfl⟩ a
    match a with
    | ⟨0, _⟩ =>
      show (rowScatter N E F wf).start (ix2 e f') idx 0 + ((rowScatter N E F wf).window (ix2 e f') 0 : Int) = (n.val : Int)
      rw [rowScatter_start0, rowScatter_window0, h0]; simp
    | ⟨1, _⟩ =>
      show (rowScatter N E F wf).start (ix2 e f') idx 1 + ((rowScatter N E F wf).window (ix2 e f') 1 : Int) = (f'.val : Int)
      rw [rowScatter_start1, rowScatter_window1]; simp

/-- A scatter-add of rows gives, at row `n` and column `f`, the operand there plus the sum of column `f` over the rows
    of the updates whose scatter index, read signed, is `n`. -/
private theorem rowScatter_apply (x : Arr2 N F) (u : Arr2 E F) (n : Fin N) (f : Fin F) :
    Host.scatterAdd (F := Ideal) (φ := .f32) (rowScatter N E F wf) x idx u (ix2 n f)
      = x (ix2 n f)
        + ∑ e ∈ Finset.univ.filter (fun e : Fin E => (idx (ix2 e 0)).toInt = (n.val : Int)), u (ix2 e f) := by
  rw [scatterAdd_ideal]
  unfold Ideal.hostScatterAdd
  congr 1
  rw [Finset.sum_filter, sum_idx2, Finset.sum_filter]
  refine Finset.sum_congr rfl (fun e _ => ?_)
  simp only [rowScatter_lands]
  by_cases hA : (idx (ix2 e 0)).toInt = (n.val : Int)
  · simp [hA]
  · simp [hA]

end RowScatter

/-! ## The kernel program's records -/

theorem gatherK128_apply {α : Type} (x : (⟨2, ![50000, 128]⟩ : Shape).Idx → α) (idx : EdgeIdx) (e : Fin 850000) (f : Fin 128) :
    Host.gather Cert.KernelIdeal.gather_S50000x128_S850000x1_S850000x128_1_0_n_n_0_1_1128 x idx (ix2 e f)
      = x (ix2 (clampRow (idx (ix2 e 0))) f) :=
  rowGather_apply (N := 50000) (by decide) Cert.KernelIdeal.gather_S50000x128_S850000x1_S850000x128_1_0_n_n_0_1_1128.wf x idx e f

theorem gatherK64_apply {α : Type} (x : (⟨2, ![50000, 64]⟩ : Shape).Idx → α) (idx : EdgeIdx) (e : Fin 850000) (f : Fin 64) :
    Host.gather Cert.KernelIdeal.gather_S50000x64_S850000x1_S850000x64_1_0_n_n_0_1_164 x idx (ix2 e f)
      = x (ix2 (clampRow (idx (ix2 e 0))) f) :=
  rowGather_apply (N := 50000) (by decide) Cert.KernelIdeal.gather_S50000x64_S850000x1_S850000x64_1_0_n_n_0_1_164.wf x idx e f

theorem scatterK128_apply (x : Arr2 50000 128) (idx : EdgeIdx) (u : Arr2 850000 128) (n : Fin 50000) (f : Fin 128) :
    Host.scatterAdd (F := Ideal) (φ := .f32) Cert.KernelIdeal.scatter_S50000x128_S850000x1_S850000x128_1_0_0_1 x idx u (ix2 n f)
      = x (ix2 n f) + ∑ e ∈ landing idx n, u (ix2 e f) :=
  rowScatter_apply Cert.KernelIdeal.scatter_S50000x128_S850000x1_S850000x128_1_0_0_1.wf idx x u n f

theorem scatterK64_apply (x : Arr2 50000 64) (idx : EdgeIdx) (u : Arr2 850000 64) (n : Fin 50000) (f : Fin 64) :
    Host.scatterAdd (F := Ideal) (φ := .f32) Cert.KernelIdeal.scatter_S50000x64_S850000x1_S850000x64_1_0_0_1 x idx u (ix2 n f)
      = x (ix2 n f) + ∑ e ∈ landing idx n, u (ix2 e f) :=
  rowScatter_apply Cert.KernelIdeal.scatter_S50000x64_S850000x1_S850000x64_1_0_0_1.wf idx x u n f

/-! ## The reference program's records -/

theorem gatherRflat_apply {α : Type} (x : (⟨1, ![50000]⟩ : Shape).Idx → α) (idx : EdgeIdx) (e : Fin 850000) :
    Host.gather Cert.ReferenceIdeal.gather_S50000_S850000x1_S850000_n_0_n_n_0_1_1 x idx (ix1 e)
      = x (ix1 (clampRow (idx (ix2 e 0)))) := by
  unfold Host.gather
  congr 1
  funext a
  refine Fin.ext ?_
  match a with
  | ⟨0, _⟩ =>
    show GatherDims.start Cert.ReferenceIdeal.gather_S50000_S850000x1_S850000_n_0_n_n_0_1_1 (ix1 e) idx 0
      + GatherDims.batchCoord Cert.ReferenceIdeal.gather_S50000_S850000x1_S850000_n_0_n_n_0_1_1 (ix1 e) 0
      + GatherDims.offCoord Cert.ReferenceIdeal.gather_S50000_S850000x1_S850000_n_0_n_n_0_1_1 (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ Cert.ReferenceIdeal.gather_S50000_S850000x1_S850000_n_0_n_n_0_1_1.startIndexMap from List.mem_singleton.mpr rfl)]
    have hsi : Cert.ReferenceIdeal.gather_S50000_S850000x1_S850000_n_0_n_n_0_1_1.siIdx (ix1 e) ⟨List.idxOf (0 : Fin 1) Cert.ReferenceIdeal.gather_S50000_S850000x1_S850000_n_0_n_n_0_1_1.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

theorem gatherR100_apply {α : Type} (x : (⟨2, ![50000, 100]⟩ : Shape).Idx → α) (idx : EdgeIdx) (e : Fin 850000) (f : Fin 100) :
    Host.gather Cert.ReferenceIdeal.gather_S50000x100_S850000x1_S850000x100_1_0_n_n_0_1_1100 x idx (ix2 e f)
      = x (ix2 (clampRow (idx (ix2 e 0))) f) :=
  rowGather_apply (N := 50000) (by decide) Cert.ReferenceIdeal.gather_S50000x100_S850000x1_S850000x100_1_0_n_n_0_1_1100.wf x idx e f

theorem gatherR64_apply {α : Type} (x : (⟨2, ![50000, 64]⟩ : Shape).Idx → α) (idx : EdgeIdx) (e : Fin 850000) (f : Fin 64) :
    Host.gather Cert.ReferenceIdeal.gather_S50000x64_S850000x1_S850000x64_1_0_n_n_0_1_164 x idx (ix2 e f)
      = x (ix2 (clampRow (idx (ix2 e 0))) f) :=
  rowGather_apply (N := 50000) (by decide) Cert.ReferenceIdeal.gather_S50000x64_S850000x1_S850000x64_1_0_n_n_0_1_164.wf x idx e f

theorem scatterR100_apply (x : Arr2 50000 100) (idx : EdgeIdx) (u : Arr2 850000 100) (n : Fin 50000) (f : Fin 100) :
    Host.scatterAdd (F := Ideal) (φ := .f32) Cert.ReferenceIdeal.scatter_S50000x100_S850000x1_S850000x100_1_0_0_1 x idx u (ix2 n f)
      = x (ix2 n f) + ∑ e ∈ landing idx n, u (ix2 e f) :=
  rowScatter_apply Cert.ReferenceIdeal.scatter_S50000x100_S850000x1_S850000x100_1_0_0_1.wf idx x u n f

theorem scatterR64_apply (x : Arr2 50000 64) (idx : EdgeIdx) (u : Arr2 850000 64) (n : Fin 50000) (f : Fin 64) :
    Host.scatterAdd (F := Ideal) (φ := .f32) Cert.ReferenceIdeal.scatter_S50000x64_S850000x1_S850000x64_1_0_0_1 x idx u (ix2 n f)
      = x (ix2 n f) + ∑ e ∈ landing idx n, u (ix2 e f) :=
  rowScatter_apply Cert.ReferenceIdeal.scatter_S50000x64_S850000x1_S850000x64_1_0_0_1.wf idx x u n f

end Cert.Gcn

end
-- ==== Proof.Graph.lean ====
import proofs.«167101_j2869038154062_2_alg».proof.Proof.RefReadP
import proofs.«167101_j2869038154062_2_alg».proof.Proof.Arrays
import proofs.«167101_j2869038154062_2_alg».proof.Proof.Rows

/-! # The graph the two programs share

Both programs derive the same things from the edge list: the edges' source and destination indices (the given
edges followed by one self-loop per node), each node's scale (the inverse square root of its in-degree), the row a
gather reads for an edge (source or destination: a negative index wrapped by the number of nodes, then clamped), and
the node an edge's message is added into (the destination index as it stands; out of range, the message is dropped).
They are named here once, as the reference's own stages of the edge list. -/

noncomputable section

namespace Cert.Gcn

open Idealize.ShloMosaic Idealize.ShloMosaic.ValueIdx Cert.ReferenceIdeal

/-- The edge list: 2 × 800000 integers, sources in row 0, destinations in row 1. -/
abbrev EdgeList : Type := (⟨2, ![2, 800000]⟩ : Shape).Idx → BitVec 32

/-- The start indices of the gathers by source: the source indices, negative ones wrapped, as a column. -/
def srcIdx (x1 : EdgeList) : EdgeIdx := ReadP.val_main_v38 (F := Ideal) x1

/-- The scatter indices: the destination indices as they stand, as a column. -/
def dstIdx (x1 : EdgeList) : EdgeIdx := ReadP.val_main_v44 (F := Ideal) x1

/-- The start indices of the gather by destination: the destination indices, negative ones wrapped, as a column. -/
def dstwIdx (x1 : EdgeList) : EdgeIdx := ReadP.val_main_v30 (F := Ideal) x1

/-- Node `n`'s scale. -/
def dinv (x1 : EdgeList) (n : Fin 50000) : EReal := ReadP.val_main_v17 (F := Ideal) x1 (ix1 n)

/-- The node whose row edge `e` gathers by its source. -/
def rowS (x1 : EdgeList) (e : Fin 850000) : Fin 50000 := clampRow (srcIdx x1 (ix2 e 0))

/-- The node whose scale edge `e` gathers by its destination. -/
def rowD (x1 : EdgeList) (e : Fin 850000) : Fin 50000 := clampRow (dstwIdx x1 (ix2 e 0))

/-- Edge `e`'s message is added into node `n`. -/
def lands (x1 : EdgeList) (e : Fin 850000) (n : Fin 50000) : Prop := (dstIdx x1 (ix2 e 0)).toInt = (n.val : Int)

instance (x1 : EdgeList) (e : Fin 850000) (n : Fin 50000) : Decidable (lands x1 e n) := by
  unfold lands; infer_instance

theorem landing_dstIdx (x1 : EdgeList) (n : Fin 50000) :
    landing (dstIdx x1) n = Finset.univ.filter (fun e => lands x1 e n) := rfl

end Cert.Gcn

end
-- ==== Proof.Spec.lean ====
import Idealize.ShloMosaic.PureOps.Ideal
import Idealize.ShloMosaic.Lib.ValueIdx

/-! # A two-layer graph convolution with symmetric normalisation, in two arrangements

Nodes `Nd`, edges `Ed`. Edge `e` reads its message from node `row e` and adds it into every node `n` with
`lands e n` (at most one; an edge whose destination is out of range lands nowhere). Every node has a scale `d n`
(the inverse square root of its in-degree), a nonnegative real number.

One layer sends `h` to `n ↦ ∑ over the edges landing on n of h (row e) · (d (row e) · d (rowd e))`, where `rowd e` is
the node the edge's destination index names when it is read as a gather index; on a landing edge that node is `n`
itself. So the factor `d n` is common to every term of the sum and may be taken out of it: scale `h` by `d` before the
gather, add up, and scale the sum by `d n` afterwards. Taking a factor out of a sum of extended reals is sound when
the factor is nonnegative and finite, which is all that is used of `d`; the messages themselves may be infinite.

The two programs are this layer twice — a dense product before each, a bias after, a rectifier between — followed by
a division of every row by its Euclidean norm (bounded below by a small constant). -/

noncomputable section

open scoped BigOperators

namespace Cert.Gcn

open Idealize.ShloMosaic

variable {Nd Ed : Type} [Fintype Ed]

/-- A factor that is nonnegative and finite comes out of a finite sum of extended reals. -/
theorem sum_mul_of_nonneg_of_ne_top {ι : Type} (S : Finset ι) (g : ι → EReal) {c : EReal} (h0 : 0 ≤ c) (ht : c ≠ ⊤) :
    ∑ j ∈ S, g j * c = (∑ j ∈ S, g j) * c := by
  classical
  induction S using Finset.induction_on with
  | empty => simp
  | insert a S ha ih =>
    rw [Finset.sum_insert ha, Finset.sum_insert ha, ih, EReal.right_distrib_of_nonneg_of_ne_top h0 ht]

section Layer

variable (row rowd : Ed → Nd) (lands : Ed → Nd → Prop) [∀ e n, Decidable (lands e n)] (d : Nd → EReal)

/-- Gather then scatter-add: the sum, over the edges landing on `n`, of `v` at the edge's source node. -/
def agg (v : Nd → EReal) (n : Nd) : EReal :=
  ∑ e ∈ Finset.univ.filter (fun e => lands e n), v (row e)

/-- One layer as the kernel arranges it: scale by `d` before the gather, and the sum by `d n` after it. -/
def layerK (h : Nd → EReal) (n : Nd) : EReal :=
  agg row lands (fun r => h r * d r) n * d n

/-- One layer as the reference arranges it: every message scaled by the scales of both its ends. -/
def layerR (h : Nd → EReal) (n : Nd) : EReal :=
  ∑ e ∈ Finset.univ.filter (fun e => lands e n), h (row e) * (d (row e) * d (rowd e))

/-- The two arrangements agree: on an edge landing on `n` the destination's scale is `d n`, a nonnegative finite
    factor common to the whole sum. -/
theorem layerK_eq_layerR (hd0 : ∀ n, 0 ≤ d n) (hdt : ∀ n, d n ≠ ⊤) (hland : ∀ e n, lands e n → rowd e = n)
    (h : Nd → EReal) (n : Nd) : layerK row lands d h n = layerR row rowd lands d h n := by
  unfold layerK layerR agg
  rw [← sum_mul_of_nonneg_of_ne_top _ _ (hd0 n) (hdt n)]
  refine Finset.sum_congr rfl fun e he => ?_
  rw [hland e n (Finset.mem_filter.1 he).2, mul_assoc]

end Layer

section Network

variable (row rowd : Ed → Nd) (lands : Ed → Nd → Prop) [∀ e n, Decidable (lands e n)] (d : Nd → EReal)
variable (x : Nd → Fin 128 → EReal) (w1 : Fin 128 → Fin 100 → EReal) (b1 : Fin 100 → EReal)
  (w2 : Fin 100 → Fin 64 → EReal) (b2 : Fin 64 → EReal)

/-- The first dense product. -/
def dense1 (n : Nd) (j : Fin 100) : EReal := ∑ k : Fin 128, x n k * w1 k j

/-- The second dense product, of hidden activations `a`. -/
def dense2 (a : Nd → Fin 100 → EReal) (n : Nd) (o : Fin 64) : EReal := ∑ j : Fin 100, a n j * w2 j o

/-- A row divided by its Euclidean norm, the norm bounded below by the constant `eps`. -/
def normalize (eps : EReal) (p : Nd → Fin 64 → EReal) (n : Nd) (o : Fin 64) : EReal :=
  Ideal.div (p n o) (max (Ideal.sqrt (∑ o' : Fin 64, p n o' * p n o')) eps)

/-- Hidden activations, the kernel's arrangement. -/
def hidK (n : Nd) (j : Fin 100) : EReal :=
  max (layerK row lands d (fun r => dense1 x w1 r j) n + b1 j) 0

/-- The output before normalisation, the kernel's arrangement. -/
def preK (n : Nd) (o : Fin 64) : EReal :=
  layerK row lands d (fun r => dense2 w2 (hidK row lands d x w1 b1) r o) n + b2 o

/-- The kernel's result. -/
def outK (eps : EReal) (n : Nd) (o : Fin 64) : EReal :=
  normalize eps (preK row lands d x w1 b1 w2 b2) n o

/-- Hidden activations, the reference's arrangement. -/
def hidR (n : Nd) (j : Fin 100) : EReal :=
  max (layerR row rowd lands d (fun r => dense1 x w1 r j) n + b1 j) 0

/-- The output before normalisation, the reference's arrangement. -/
def preR (n : Nd) (o : Fin 64) : EReal :=
  layerR row rowd lands d (fun r => dense2 w2 (hidR row rowd lands d x w1 b1) r o) n + b2 o

/-- The reference's result. -/
def outR (eps : EReal) (n : Nd) (o : Fin 64) : EReal :=
  normalize eps (preR row rowd lands d x w1 b1 w2 b2) n o

variable (hd0 : ∀ n, 0 ≤ d n) (hdt : ∀ n, d n ≠ ⊤) (hland : ∀ e n, lands e n → rowd e = n)
include hd0 hdt hland

theorem hidK_eq_hidR : hidK row lands d x w1 b1 = hidR row rowd lands d x w1 b1 := by
  funext n j
  unfold hidK hidR
  rw [layerK_eq_layerR row rowd lands d hd0 hdt hland]

theorem preK_eq_preR : preK row lands d x w1 b1 w2 b2 = preR row rowd lands d x w1 b1 w2 b2 := by
  funext n o
  unfold preK preR
  rw [layerK_eq_layerR row rowd lands d hd0 hdt hland, hidK_eq_hidR row rowd lands d x w1 b1 hd0 hdt hland]

/-- The kernel's arrangement and the reference's give the same result. -/
theorem outK_eq_outR (eps : EReal) : outK row lands d x w1 b1 w2 b2 eps = outR row rowd lands d x w1 b1 w2 b2 eps := by
  funext n o
  unfold outK outR
  rw [preK_eq_preR row rowd lands d x w1 b1 w2 b2 hd0 hdt hland]

end Network

end Cert.Gcn

end
-- ==== Proof.KAlgebra.lean ====
import proofs.«167101_j2869038154062_2_alg».proof.Proof.Spec
import proofs.«167101_j2869038154062_2_alg».proof.Proof.Arrays

/-! # The three kernels' whole-array functions are the network's layers

The hidden width is 100, carried in 128 columns of which the last 28 are zero padding. A sum over the 128 columns whose
second factor vanishes beyond column 100 is the sum over the first 100, because `x * 0 = 0` for every extended real.
With that, each kernel's whole-array function, fed the operands the program feeds it, is the corresponding layer of the
network in the kernel's arrangement. -/

noncomputable section

open scoped BigOperators
open Idealize.ShloMosaic Idealize.ShloMosaic.ValueIdx

namespace Cert.Gcn

/-- A hidden column among the 128 padded columns. -/
def up (j : Fin 100) : Fin 128 := ⟨j.val, by omega⟩

theorem up_injective : Function.Injective up := by
  intro a b h
  have hv : (up a).val = (up b).val := congrArg Fin.val h
  exact Fin.ext hv

/-- A sum over the 128 padded columns whose second factor is zero beyond column 100 is the sum over the 100 hidden
    columns. -/
theorem sum_pad (f : Fin 128 → EReal) (g : Fin 100 → EReal) :
    ∑ j : Fin 128, f j * (if h : j.val < 100 then g ⟨j.val, h⟩ else 0) = ∑ j : Fin 100, f (up j) * g j := by
  classical
  have hsub : (Finset.univ.map ⟨up, up_injective⟩) ⊆ (Finset.univ : Finset (Fin 128)) := Finset.subset_univ _
  rw [← Finset.sum_subset hsub]
  · rw [Finset.sum_map]
    refine Finset.sum_congr rfl fun j _ => ?_
    have hj : (up j).val < 100 := j.isLt
    show f (up j) * (if h : (up j).val < 100 then g ⟨(up j).val, h⟩ else 0) = f (up j) * g j
    rw [dif_pos hj]
    rfl
  · intro j _ hj
    have hn : ¬ j.val < 100 := by
      intro h
      apply hj
      rw [Finset.mem_map]
      exact ⟨⟨j.val, h⟩, Finset.mem_univ _, Fin.ext rfl⟩
    rw [dif_neg hn, mul_zero]

section

variable {Ed : Type} [Fintype Ed] (row : Ed → Fin 50000) (lands : Ed → Fin 50000 → Prop) [∀ e n, Decidable (lands e n)]
  (d : Fin 50000 → EReal) (x : Fin 50000 → Fin 128 → EReal) (w1 : Fin 128 → Fin 100 → EReal) (b1 : Fin 100 → EReal)
  (w2 : Fin 100 → Fin 64 → EReal) (b2 : Fin 64 → EReal)

/-- The first kernel's result on a hidden column is the first dense product, scaled by the row's scale. -/
theorem reg0_eq (x0 : Arr2 50000 128) (wp : Arr2 128 128) (dc : Arr2 50000 1)
    (hx : ∀ n k, x0 (ix2 n k) = x n k) (hw : ∀ k (j : Fin 100), wp (ix2 k (up j)) = w1 k j) (hd : ∀ n, dc (ix2 n 0) = d n)
    (r : Fin 50000) (j : Fin 100) : reg0 x0 wp dc r (up j) = dense1 x w1 r j * d r := by
  unfold reg0 dense1
  rw [hd]
  congr 1
  refine Finset.sum_congr rfl fun k _ => ?_
  rw [hx, hw]

/-- The second kernel's result is the second dense product of the hidden activations, scaled by the row's scale. -/
theorem reg1_eq (g : Arr2 50000 128) (dc : Arr2 50000 1) (bp : Arr2 1 128) (wp : Arr2 128 64)
    (hg : ∀ r (j : Fin 100), g (ix2 r (up j)) = agg row lands (fun s => dense1 x w1 s j * d s) r)
    (hd : ∀ n, dc (ix2 n 0) = d n) (hb : ∀ j : Fin 100, bp (ix2 0 (up j)) = b1 j)
    (hw : ∀ (j : Fin 128) (o : Fin 64), wp (ix2 j o) = if h : j.val < 100 then w2 ⟨j.val, h⟩ o else 0)
    (r : Fin 50000) (o : Fin 64) : reg1 g dc bp wp r o = dense2 w2 (hidK row lands d x w1 b1) r o * d r := by
  unfold reg1 dense2
  rw [hd]
  congr 1
  have h1 : ∑ j : Fin 128, act1 g dc bp r j * wp (ix2 j o)
      = ∑ j : Fin 128, act1 g dc bp r j * (if h : j.val < 100 then (fun i => w2 i o) ⟨j.val, h⟩ else 0) :=
    Finset.sum_congr rfl fun j _ => by rw [hw]
  refine (h1.trans (sum_pad (fun j => act1 g dc bp r j) (fun i => w2 i o))).trans ?_
  refine Finset.sum_congr rfl fun j _ => ?_
  unfold act1 hidK layerK
  rw [hg, hd, hb]

/-- The third kernel's result is the network's result in the kernel's arrangement. -/
theorem reg2_eq (g : Arr2 50000 64) (dc : Arr2 50000 1) (br : Arr2 1 64)
    (hg : ∀ n o, g (ix2 n o) = agg row lands (fun s => dense2 w2 (hidK row lands d x w1 b1) s o * d s) n)
    (hd : ∀ n, dc (ix2 n 0) = d n) (hb : ∀ o, br (ix2 0 o) = b2 o)
    (n : Fin 50000) (o : Fin 64) : reg2 g dc br n o = outK row lands d x w1 b1 w2 b2 eps n o := by
  have hp : ∀ o', pre2 g dc br n o' = preK row lands d x w1 b1 w2 b2 n o' := by
    intro o'
    unfold pre2 preK layerK
    rw [hg, hd, hb]
  unfold reg2 outK normalize
  rw [hp]
  congr 3
  exact Finset.sum_congr rfl fun o' _ => by rw [hp]

end

end Cert.Gcn

end
-- ==== Proof.KLaunch.lean ====
import proofs.«167101_j2869038154062_2_alg».proof.Proof.KHost0
import proofs.«167101_j2869038154062_2_alg».proof.Proof.Pads
import proofs.«167101_j2869038154062_2_alg».proof.Proof.Graph
import proofs.«167101_j2869038154062_2_alg».proof.Proof.KAlgebra
import Idealize.ShloMosaic.Lib.Pipeline.Value
import Idealize.ShloMosaic.Lib.ValueIdx
import Idealize.ShloMosaic.PureOps.Ideal.Laws

/-! # The first kernel's operands, in the network's terms

As the first kernel finds them: the features are the argument; the scale column's entry for node `r` is `dinv r`;
the widened first weight matrix agrees with the argument on its first 100 columns, the widened bias on its first 100
entries, the widened second weight matrix on its first 100 rows and is zero on the rest; the last bias is the
argument as a row; and the two index arrays are the reference's own stages of the edge list. -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

open Idealize.ShloMosaic.ValueIdx
open Cert.Gcn (up dinv)

variable (m : (ℓ : Loc nD τ sig) → Buf (Elt Ideal) ℓ) (ρ : Dev nD → PrngReg) (c : Dev nD)

/-- A scalar zero broadcast to any shape is zero at every index. -/
theorem zeros_apply {t : Shape} (h : S_.BroadcastsInDim t (![] : Fin 0 → Fin t.rank)) (i : t.Idx) :
    broadcastInDim t ![] h (constant (F := Ideal) S_ .f32 0x00000000#32) i = 0 := by
  rw [broadcastInDim_apply _ h _ i ix0 (fun a => a.elim0), constant_apply, Ideal.ofBits_zero_f32]

/-! ## The arguments, typed -/

/-- The node features. -/
abbrev A0 : Cert.Gcn.Arr2 50000 128 := (m ((c : Thread nD τ).loc main_arg0))
/-- The edge list. -/
abbrev A1 : Cert.Gcn.EdgeList := (m ((c : Thread nD τ).loc main_arg1))
/-- The first weight matrix. -/
abbrev A2 : Cert.Gcn.Arr2 128 100 := (m ((c : Thread nD τ).loc main_arg2))
/-- The first bias. -/
abbrev A3 : (⟨1, ![100]⟩ : Shape).Idx → EReal := (m ((c : Thread nD τ).loc main_arg3))
/-- The second weight matrix. -/
abbrev A4 : Cert.Gcn.Arr2 100 64 := (m ((c : Thread nD τ).loc main_arg4))
/-- The second bias. -/
abbrev A5 : (⟨1, ![64]⟩ : Shape).Idx → EReal := (m ((c : Thread nD τ).loc main_arg5))

/-! ## The arguments reach the last launch-side stretch unchanged -/

theorem W2_arg2 : W2 m ρ c (Proc.devRef .tc main_arg2) = (m ((c : Thread nD τ).loc main_arg2)) :=
  (StableHlo.after_of_forall_not_mem (b := Proc.devRef .tc main_arg2) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl)

theorem W2_arg3 : W2 m ρ c (Proc.devRef .tc main_arg3) = (m ((c : Thread nD τ).loc main_arg3)) :=
  (StableHlo.after_of_forall_not_mem (b := Proc.devRef .tc main_arg3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl)

theorem W2_arg4 : W2 m ρ c (Proc.devRef .tc main_arg4) = (m ((c : Thread nD τ).loc main_arg4)) :=
  (StableHlo.after_of_forall_not_mem (b := Proc.devRef .tc main_arg4) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl)

theorem W2_arg5 : W2 m ρ c (Proc.devRef .tc main_arg5) = (m ((c : Thread nD τ).loc main_arg5)) :=
  (StableHlo.after_of_forall_not_mem (b := Proc.devRef .tc main_arg5) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl)

/-! ## What the first kernel finds -/

theorem W3_x : W3 m ρ c (Proc.devRef .tc main_arg0) = (m ((c : Thread nD τ).loc main_arg0)) :=
  (StableHlo.after_of_forall_not_mem (b := Proc.devRef .tc main_arg0) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg0) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl))

theorem W3_src : W3 m ρ c (Proc.devRef .tc main_v3)
    = Cert.ReferenceIdeal.ReadP.val_main_v3 (F := Ideal) (m ((c : Thread nD τ).loc main_arg1)) :=
  (StableHlo.after_of_forall_not_mem (b := Proc.devRef .tc main_v3) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_v3) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W1_v3 m ρ c))

theorem W3_dst : W3 m ρ c (Proc.devRef .tc main_v6)
    = Cert.ReferenceIdeal.ReadP.val_main_v6 (F := Ideal) (m ((c : Thread nD τ).loc main_arg1)) :=
  (StableHlo.after_of_forall_not_mem (b := Proc.devRef .tc main_v6) _ _ (List.forall_iff_forall_mem.mp (by
      simp only [hostOps0_2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((StableHlo.after_of_forall_not_mem (b := Proc.devRef .tc main_v6) _ _ (List.forall_iff_forall_mem.mp (by
      simp only [hostOps0_1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W1_v6 m ρ c))

theorem W3_v17 : W3 m ρ c (Proc.devRef .tc main_v17)
    = shapeCast S50000x1 (Cert.ReferenceIdeal.ReadP.val_main_v17 (F := Ideal) (m ((c : Thread nD τ).loc main_arg1))) shapeCasts_S50000_S50000x1 := by
  show StableHlo.after hostOps0_2 (W2 m ρ c) _ = _
  rw [ops02_v17, W2_v16]

/-- The scale column's entry for node `r` is `dinv r`. -/
theorem W3_dcol (r : Fin 50000) : W3 m ρ c (Proc.devRef .tc main_v17) (ix2 r 0) = dinv (m ((c : Thread nD τ).loc main_arg1)) r := by
  rw [W3_v17]
  unfold Cert.Gcn.dinv
  exact shapeCast_apply _ shapeCasts_S50000_S50000x1 (ix2 r 0) (ix1 r)
    (by rw [Shape.rowMajor_val_one, Shape.rowMajor_val_two]; show r.val = r.val * 1 + 0; omega)

theorem W3_v20 : W3 m ρ c (Proc.devRef .tc main_v20)
    = Host.scatter scatter_S128x128_S1_S128x100_01_n_1_0 (fun _ b => b)
        (broadcastInDim S128x128 ![] bcast_S_S128x128 (constant (F := Ideal) S_ .f32 0x00000000#32))
        (broadcastInDim S1 ![] bcast_S_S1 (constantI S_ 32 0#32)) (A2 m c) := by
  show StableHlo.after hostOps0_2 (W2 m ρ c) _ = _
  rw [ops02_v20, W2_arg2]

theorem W3_v25 : W3 m ρ c (Proc.devRef .tc main_v25)
    = Host.scatter scatter_S1x128_S2_S100_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0) (A3 m c) := by
  show StableHlo.after hostOps0_2 (W2 m ρ c) _ = _
  rw [ops02_v25, W2_arg3]

theorem W3_v28 : W3 m ρ c (Proc.devRef .tc main_v28)
    = Host.scatter scatter_S128x64_S1_S100x64_01_n_0_0 (fun _ b => b)
        (broadcastInDim S128x64 ![] bcast_S_S128x64 (constant (F := Ideal) S_ .f32 0x00000000#32))
        (broadcastInDim S1 ![] bcast_S_S1 (constantI S_ 32 0#32)) (A4 m c) := by
  show StableHlo.after hostOps0_2 (W2 m ρ c) _ = _
  rw [ops02_v28, W2_arg4]

theorem W3_v29 : W3 m ρ c (Proc.devRef .tc main_v29) = shapeCast S1x64 (A5 m c) shapeCasts_S64_S1x64 := by
  show StableHlo.after hostOps0_2 (W2 m ρ c) _ = _
  rw [ops02_v29, W2_arg5]

/-- The widened first weight matrix on its first 100 columns. -/
theorem W3_w1 (k : Fin 128) (j : Fin 100) :
    (W3 m ρ c (Proc.devRef .tc main_v20) : Cert.Gcn.Arr2 128 128) (ix2 k (up j)) = A2 m c (ix2 k j) := by
  rw [W3_v20]
  refine (Cert.Gcn.padW1_apply _ _ rfl _ k (up j)).trans ?_
  rw [dif_pos (show (up j).val < 100 from j.isLt)]
  rfl

/-- The widened first bias on its first 100 entries. -/
theorem W3_b1 (j : Fin 100) :
    (W3 m ρ c (Proc.devRef .tc main_v25) : Cert.Gcn.Arr2 1 128) (ix2 0 (up j)) = A3 m c (ix1 j) := by
  rw [W3_v25]
  refine (Cert.Gcn.padB1_apply _ _ rfl rfl _ (up j)).trans ?_
  rw [dif_pos (show (up j).val < 100 from j.isLt)]
  rfl

/-- The widened second weight matrix: the argument on its first 100 rows, zero below. -/
theorem W3_w2 (j : Fin 128) (o : Fin 64) :
    (W3 m ρ c (Proc.devRef .tc main_v28) : Cert.Gcn.Arr2 128 64) (ix2 j o)
      = if h : j.val < 100 then A4 m c (ix2 ⟨j.val, h⟩ o) else 0 := by
  rw [W3_v28]
  refine (Cert.Gcn.padW2_apply _ _ rfl _ j o).trans ?_
  split
  · rfl
  · exact zeros_apply _ _

/-- The last bias as a row. -/
theorem W3_b2 (o : Fin 64) :
    (W3 m ρ c (Proc.devRef .tc main_v29) : Cert.Gcn.Arr2 1 64) (ix2 0 o) = A5 m c (ix1 o) := by
  rw [W3_v29]
  exact shapeCast_apply _ shapeCasts_S64_S1x64 (ix2 0 o) (ix1 o)
    (by rw [Shape.rowMajor_val_one, Shape.rowMajor_val_two]; show o.val = 0 * 64 + o.val; omega)

end Cert.KernelIdeal.Gen

end
-- ==== Proof.KAgg.lean ====
import proofs.«167101_j2869038154062_2_alg».proof.Proof.KHost12
import proofs.«167101_j2869038154062_2_alg».proof.Proof.KLaunch
import proofs.«167101_j2869038154062_2_alg».proof.Proof.Rows
import proofs.«167101_j2869038154062_2_alg».proof.Proof.Graph
import proofs.«167101_j2869038154062_2_alg».proof.Proof.Spec

/-! # The aggregations, read at one index

Gathering the rows of a table by the edges' sources and adding them into the rows the destinations name gives, at
row `n` and column `j`, the sum over the edges landing on `n` of the table's entry at the edge's source row and column
`j`: the zero array it is added into contributes nothing. -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

open Idealize.ShloMosaic.ValueIdx
open Cert.Gcn (EdgeList rowS lands agg)

theorem plainCol_dst (x1 : EdgeList) :
    plainCol (Cert.ReferenceIdeal.ReadP.val_main_v6 (F := Ideal) x1) = Cert.Gcn.dstIdx x1 := rfl

theorem wrapCol_src (x1 : EdgeList) :
    wrapCol (Cert.ReferenceIdeal.ReadP.val_main_v3 (F := Ideal) x1) = Cert.Gcn.srcIdx x1 := rfl

theorem agg128_apply (x1 : EdgeList) (g : (⟨S50000x128, .f32⟩ : BufTy).Contents (Elt Ideal)) (n : Fin 50000) (j : Fin 128) :
    agg128 (Cert.ReferenceIdeal.ReadP.val_main_v3 (F := Ideal) x1) (Cert.ReferenceIdeal.ReadP.val_main_v6 (F := Ideal) x1) g (ix2 n j)
      = agg (rowS x1) (lands x1) (fun r => g (ix2 r j)) n := by
  unfold agg128 Cert.Gcn.agg
  rw [plainCol_dst, wrapCol_src]
  refine (Cert.Gcn.scatterK128_apply _ _ _ n j).trans ?_
  rw [zeros_apply, zero_add, Cert.Gcn.landing_dstIdx]
  refine Finset.sum_congr rfl fun e _ => ?_
  exact Cert.Gcn.gatherK128_apply g (Cert.Gcn.srcIdx x1) e j

theorem agg64_apply (x1 : EdgeList) (g : (⟨S50000x64, .f32⟩ : BufTy).Contents (Elt Ideal)) (n : Fin 50000) (o : Fin 64) :
    agg64 (Cert.ReferenceIdeal.ReadP.val_main_v3 (F := Ideal) x1) (Cert.ReferenceIdeal.ReadP.val_main_v6 (F := Ideal) x1) g (ix2 n o)
      = agg (rowS x1) (lands x1) (fun r => g (ix2 r o)) n := by
  unfold agg64 Cert.Gcn.agg
  rw [plainCol_dst, wrapCol_src]
  refine (Cert.Gcn.scatterK64_apply _ _ _ n o).trans ?_
  rw [zeros_apply, zero_add, Cert.Gcn.landing_dstIdx]
  refine Finset.sum_congr rfl fun e _ => ?_
  exact Cert.Gcn.gatherK64_apply g (Cert.Gcn.srcIdx x1) e o

end Cert.KernelIdeal.Gen

end
-- ==== Proof.KValue.lean ====
import proofs.«167101_j2869038154062_2_alg».proof.Proof.KPersist
import proofs.«167101_j2869038154062_2_alg».proof.Proof.KLaunch
import proofs.«167101_j2869038154062_2_alg».proof.Proof.KAgg
import proofs.«167101_j2869038154062_2_alg».proof.Proof.KAlgebra
import proofs.«167101_j2869038154062_2_alg».proof.Proof.Spec

/-! # The kernel program's result is the network's

Put together: the third kernel's result is its whole-array function of the second aggregation, the scale column
and the last bias; the second aggregation sums, over the edges landing on a node, the second kernel's result at the
edge's source; that result is the second kernel's function of the first aggregation, the scale, and the widened bias
and weights; and so on down to the arguments. Each kernel's function, fed these operands, is the corresponding layer
of the network in the kernel's arrangement (scale, gather, add, scale). -/

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

open Idealize.ShloMosaic.ValueIdx
open Cert.Gcn (up dinv rowS lands agg dense1 dense2 hidK outK eps reg0_eq reg1_eq reg2_eq)

variable (m : (ℓ : Loc nD τ sig) → Buf (Elt Ideal) ℓ) (ρ : Dev nD → PrngReg) (c : Dev nD)

/-! ## The arguments as the network's data -/

abbrev xN : Fin 50000 → Fin 128 → EReal := fun n k => A0 m c (ix2 n k)
abbrev w1N : Fin 128 → Fin 100 → EReal := fun k j => A2 m c (ix2 k j)
abbrev b1N : Fin 100 → EReal := fun j => A3 m c (ix1 j)
abbrev w2N : Fin 100 → Fin 64 → EReal := fun j o => A4 m c (ix2 j o)
abbrev b2N : Fin 64 → EReal := fun o => A5 m c (ix1 o)

/-- The first aggregation, on the first 100 columns: the sum over the landing edges of the scaled dense product. -/
theorem layer1 (r : Fin 50000) (j : Fin 100) :
    (V5 m ρ c main_v40 : Cert.Gcn.Arr2 50000 128) (ix2 r (up j))
      = agg (rowS (A1 m c)) (lands (A1 m c)) (fun s => dense1 (xN m c) (w1N m c) s j * dinv (A1 m c) s) r := by
  show (W5 m ρ c (Proc.devRef .tc main_v40) : Cert.Gcn.Arr2 50000 128) (ix2 r (up j)) = _
  rw [W5_v40, W3_src, W3_dst]
  refine (agg128_apply (A1 m c) _ r (up j)).trans ?_
  unfold Cert.Gcn.agg
  refine Finset.sum_congr rfl fun e _ => ?_
  exact (W4_v30 m ρ c (rowS (A1 m c) e) (up j)).trans
    (reg0_eq (dinv (A1 m c)) (xN m c) (w1N m c) _ _ _ (fun n k => congrFun (W3_x m ρ c) (ix2 n k)) (W3_w1 m ρ c) (W3_dcol m ρ c)
      (rowS (A1 m c) e) j)

/-- The second aggregation: the sum over the landing edges of the scaled second dense product of the hidden activations. -/
theorem layer2 (n : Fin 50000) (o : Fin 64) :
    (V7 m ρ c main_v51 : Cert.Gcn.Arr2 50000 64) (ix2 n o)
      = agg (rowS (A1 m c)) (lands (A1 m c))
          (fun s => dense2 (w2N m c) (hidK (rowS (A1 m c)) (lands (A1 m c)) (dinv (A1 m c)) (xN m c) (w1N m c) (b1N m c)) s o
            * dinv (A1 m c) s) n := by
  show (W7 m ρ c (Proc.devRef .tc main_v51) : Cert.Gcn.Arr2 50000 64) (ix2 n o) = _
  rw [W7_v51, W3_src, W3_dst]
  refine (agg64_apply (A1 m c) _ n o).trans ?_
  unfold Cert.Gcn.agg
  refine Finset.sum_congr rfl fun e _ => ?_
  exact (W6_v41 m ρ c (rowS (A1 m c) e) o).trans
    (reg1_eq (rowS (A1 m c)) (lands (A1 m c)) (dinv (A1 m c)) (xN m c) (w1N m c) (b1N m c) (w2N m c) _ _ _ _
      (layer1 m ρ c)
      (fun r => (congrFun (W5_v17 m ρ c) (ix2 r 0)).trans (W3_dcol m ρ c r))
      (fun j => (congrFun (W5_v25 m ρ c) (ix2 0 (up j))).trans (W3_b1 m ρ c j))
      (fun j o' => (congrFun (W5_v28 m ρ c) (ix2 j o')).trans (W3_w2 m ρ c j o'))
      (rowS (A1 m c) e) o)

/-- The kernel program's result buffer, element by element, is the network's output in the kernel's arrangement. -/
theorem kernel_value (n : Fin 50000) (o : Fin 64) :
    (W8 m ρ c (Proc.devRef .tc main_v52) : Cert.Gcn.Arr2 50000 64) (ix2 n o)
      = outK (rowS (A1 m c)) (lands (A1 m c)) (dinv (A1 m c)) (xN m c) (w1N m c) (b1N m c) (w2N m c) (b2N m c) eps n o :=
  (W8_v52 m ρ c n o).trans
    (reg2_eq (rowS (A1 m c)) (lands (A1 m c)) (dinv (A1 m c)) (xN m c) (w1N m c) (b1N m c) (w2N m c) (b2N m c) _ _ _
      (layer2 m ρ c)
      (fun r => (congrFun (W7_v17 m ρ c) (ix2 r 0)).trans (W3_dcol m ρ c r))
      (fun o' => (congrFun (W7_v29 m ρ c) (ix2 0 o')).trans (W3_b2 m ρ c o'))
      n o)

end Cert.KernelIdeal.Gen

end
-- ==== Proof.RefValue.lean ====
import proofs.«167101_j2869038154062_2_alg».proof.Proof.Graph
import proofs.«167101_j2869038154062_2_alg».proof.Proof.Spec

/-! # The reference program's result at one index

The reference computes the graph's quantities once per layer; as functions of the edge list the repeats are the same
terms. Read bottom-up — the hidden activations, the output before normalisation, the normalised output — every stage of
the reference at one index is the network of the specification in the reference's arrangement. -/

noncomputable section

open scoped BigOperators

namespace Cert.Gcn

open Idealize.ShloMosaic Idealize.ShloMosaic.ValueIdx Cert.ReferenceIdeal

/-! ## The repeated graph quantities are the same stages -/

theorem v60_eq (x1 : EdgeList) : ReadP.val_main_v60 (F := Ideal) x1 = ReadP.val_main_v17 (F := Ideal) x1 := rfl
theorem v23_eq (x1 : EdgeList) : ReadP.val_main_v23 (F := Ideal) x1 = ReadP.val_main_v38 (F := Ideal) x1 := rfl
theorem v66_eq (x1 : EdgeList) : ReadP.val_main_v66 (F := Ideal) x1 = ReadP.val_main_v38 (F := Ideal) x1 := rfl
theorem v81_eq (x1 : EdgeList) : ReadP.val_main_v81 (F := Ideal) x1 = ReadP.val_main_v38 (F := Ideal) x1 := rfl
theorem v73_eq (x1 : EdgeList) : ReadP.val_main_v73 (F := Ideal) x1 = ReadP.val_main_v30 (F := Ideal) x1 := rfl
theorem v87_eq (x1 : EdgeList) : ReadP.val_main_v87 (F := Ideal) x1 = ReadP.val_main_v44 (F := Ideal) x1 := rfl

/-- The weight of edge `e`'s message: the scales of its two ends. -/
theorem v32_apply (x1 : EdgeList) (e : Fin 850000) :
    ReadP.val_main_v32 (F := Ideal) x1 (ix1 e) = dinv x1 (rowS x1 e) * dinv x1 (rowD x1 e) := by
  rw [ReadP.val_main_v32_apply]
  unfold ReadP.val_main_v24 ReadP.val_main_v31
  rw [gatherRflat_apply, gatherRflat_apply, v23_eq]
  rfl

/-- Edge `e`'s weighted message in the first layer, column `j`. -/
theorem v42_apply (x0 : Arr2 50000 128) (x1 : EdgeList) (x2 : Arr2 128 100) (e : Fin 850000) (j : Fin 100) :
    ReadP.val_main_v42 (F := Ideal) x0 x1 x2 (ix2 e j)
      = (∑ k : Fin 128, x0 (ix2 (rowS x1 e) k) * x2 (ix2 k j)) * (dinv x1 (rowS x1 e) * dinv x1 (rowD x1 e)) := by
  have hl : ∀ (r : Fin 50000) (k : Fin 128), ReadP.lidx_main_v7 (ix2 r j) k = ix2 r k := fun r k =>
    funext fun a => Fin.ext (by match a with | ⟨0, _⟩ => rfl | ⟨1, _⟩ => rfl)
  have hr : ∀ (r : Fin 50000) (k : Fin 128), ReadP.ridx_main_v7 (ix2 r j) k = ix2 k j := fun r k =>
    funext fun a => Fin.ext (by match a with | ⟨0, _⟩ => rfl | ⟨1, _⟩ => rfl)
  have hi : ReadP.idx_main_v40 (ReadP.idx_main_v41 (ix2 e j)) = ix1 e :=
    funext fun a => Fin.ext (by match a with | ⟨0, _⟩ => rfl)
  rw [ReadP.val_main_v42_apply, ReadP.val_main_v41_apply, ReadP.val_main_v40_apply, hi, v32_apply]
  unfold ReadP.val_main_v39
  rw [gatherR100_apply, ReadP.val_main_v7_apply]
  simp only [hl, hr, Ideal.mulf_def]
  rfl

/-- The hidden activations of the reference are those of the network in the reference's arrangement. -/
theorem ref_hid (x0 : Arr2 50000 128) (x1 : EdgeList) (x2 : Arr2 128 100) (x3 : (⟨1, ![100]⟩ : Shape).Idx → EReal)
    (n : Fin 50000) (j : Fin 100) :
    ReadP.val_main_v49 (F := Ideal) x0 x1 x2 x3 (ix2 n j)
      = hidR (rowS x1) (rowD x1) (lands x1) (dinv x1) (fun n k => x0 (ix2 n k)) (fun k j => x2 (ix2 k j))
          (fun j => x3 (ix1 j)) n j := by
  have hb : ReadP.idx_main_v46 (ReadP.idx_main_v47 (ix2 n j)) = ix1 j :=
    funext fun a => Fin.ext (by match a with | ⟨0, _⟩ => rfl)
  unfold hidR layerR dense1
  rw [ReadP.val_main_v49_apply, ReadP.val_main_v48_apply, ReadP.val_main_v47_apply, ReadP.val_main_v46_apply, hb,
    ReadP.val_main_call1_v0_apply, ReadP.val_main_call1_cst_apply]
  unfold ReadP.val_main_v45
  rw [scatterR100_apply, ReadP.val_main_v43_apply, ReadP.val_main_cst_9_apply]
  simp only [v42_apply, Ideal.ofBits_def, Ideal.ofBits_zero_f32, zero_add, Ideal.addf_def, Ideal.maximumf_def]
  rfl

/-- The weight of edge `e`'s message in the second layer: the same scales again. -/
theorem v75_apply (x1 : EdgeList) (e : Fin 850000) :
    ReadP.val_main_v75 (F := Ideal) x1 (ix1 e) = dinv x1 (rowS x1 e) * dinv x1 (rowD x1 e) := by
  rw [ReadP.val_main_v75_apply]
  unfold ReadP.val_main_v67 ReadP.val_main_v74
  rw [gatherRflat_apply, gatherRflat_apply, v60_eq, v66_eq, v73_eq]
  rfl

/-- The second dense product of the reference at row `r`, column `o`. -/
theorem v50_apply (x0 : Arr2 50000 128) (x1 : EdgeList) (x2 : Arr2 128 100) (x3 : (⟨1, ![100]⟩ : Shape).Idx → EReal)
    (x4 : Arr2 100 64) (r : Fin 50000) (o : Fin 64) :
    ReadP.val_main_v50 (F := Ideal) x0 x1 x2 x3 x4 (ix2 r o)
      = dense2 (fun j o => x4 (ix2 j o))
          (hidR (rowS x1) (rowD x1) (lands x1) (dinv x1) (fun n k => x0 (ix2 n k)) (fun k j => x2 (ix2 k j))
            (fun j => x3 (ix1 j))) r o := by
  have hl : ∀ k : Fin 100, ReadP.lidx_main_v50 (ix2 r o) k = ix2 r k := fun k =>
    funext fun a => Fin.ext (by match a with | ⟨0, _⟩ => rfl | ⟨1, _⟩ => rfl)
  have hr : ∀ k : Fin 100, ReadP.ridx_main_v50 (ix2 r o) k = ix2 k o := fun k =>
    funext fun a => Fin.ext (by match a with | ⟨0, _⟩ => rfl | ⟨1, _⟩ => rfl)
  unfold dense2
  rw [ReadP.val_main_v50_apply]
  simp only [hl, hr, ref_hid]

/-- Edge `e`'s weighted message in the second layer, column `o`. -/
theorem v85_apply (x0 : Arr2 50000 128) (x1 : EdgeList) (x2 : Arr2 128 100) (x3 : (⟨1, ![100]⟩ : Shape).Idx → EReal)
    (x4 : Arr2 100 64) (e : Fin 850000) (o : Fin 64) :
    ReadP.val_main_v85 (F := Ideal) x0 x1 x2 x3 x4 (ix2 e o)
      = dense2 (fun j o => x4 (ix2 j o))
          (hidR (rowS x1) (rowD x1) (lands x1) (dinv x1) (fun n k => x0 (ix2 n k)) (fun k j => x2 (ix2 k j))
            (fun j => x3 (ix1 j))) (rowS x1 e) o * (dinv x1 (rowS x1 e) * dinv x1 (rowD x1 e)) := by
  have hi : ReadP.idx_main_v83 (ReadP.idx_main_v84 (ix2 e o)) = ix1 e :=
    funext fun a => Fin.ext (by match a with | ⟨0, _⟩ => rfl)
  rw [ReadP.val_main_v85_apply, ReadP.val_main_v84_apply, ReadP.val_main_v83_apply, hi, v75_apply]
  unfold ReadP.val_main_v82
  rw [gatherR64_apply, v81_eq, v50_apply]
  rfl

/-- The reference's output before normalisation is the network's, in the reference's arrangement. -/
theorem ref_pre (x0 : Arr2 50000 128) (x1 : EdgeList) (x2 : Arr2 128 100) (x3 : (⟨1, ![100]⟩ : Shape).Idx → EReal)
    (x4 : Arr2 100 64) (x5 : (⟨1, ![64]⟩ : Shape).Idx → EReal) (n : Fin 50000) (o : Fin 64) :
    ReadP.val_main_v91 (F := Ideal) x0 x1 x2 x3 x4 x5 (ix2 n o)
      = preR (rowS x1) (rowD x1) (lands x1) (dinv x1) (fun n k => x0 (ix2 n k)) (fun k j => x2 (ix2 k j))
          (fun j => x3 (ix1 j)) (fun j o => x4 (ix2 j o)) (fun o => x5 (ix1 o)) n o := by
  have hb : ReadP.idx_main_v89 (ReadP.idx_main_v90 (ix2 n o)) = ix1 o :=
    funext fun a => Fin.ext (by match a with | ⟨0, _⟩ => rfl)
  unfold preR layerR
  rw [ReadP.val_main_v91_apply, ReadP.val_main_v90_apply, ReadP.val_main_v89_apply, hb]
  unfold ReadP.val_main_v88
  rw [scatterR64_apply, ReadP.val_main_v86_apply, ReadP.val_main_cst_21_apply, v87_eq]
  simp only [v85_apply, Ideal.ofBits_def, Ideal.ofBits_zero_f32, zero_add, Ideal.addf_def]
  rfl

/-- The squared Euclidean norm of row `n` of the reference's output before normalisation. -/
theorem v93_apply (x0 : Arr2 50000 128) (x1 : EdgeList) (x2 : Arr2 128 100) (x3 : (⟨1, ![100]⟩ : Shape).Idx → EReal)
    (x4 : Arr2 100 64) (x5 : (⟨1, ![64]⟩ : Shape).Idx → EReal) (n : Fin 50000) :
    ReadP.val_main_v93 (F := Ideal) x0 x1 x2 x3 x4 x5 (ix1 n)
      = ∑ o' : Fin 64,
          preR (rowS x1) (rowD x1) (lands x1) (dinv x1) (fun n k => x0 (ix2 n k)) (fun k j => x2 (ix2 k j))
              (fun j => x3 (ix1 j)) (fun j o => x4 (ix2 j o)) (fun o => x5 (ix1 o)) n o'
            * preR (rowS x1) (rowD x1) (lands x1) (dinv x1) (fun n k => x0 (ix2 n k)) (fun k j => x2 (ix2 k j))
              (fun j => x3 (ix1 j)) (fun j o => x4 (ix2 j o)) (fun o => x5 (ix1 o)) n o' := by
  have hs : ∀ k : Fin 64, ReadP.idx_main_v93 (ix1 n) k = ix2 n k := fun k =>
    funext fun a => Fin.ext (by match a with | ⟨0, _⟩ => rfl | ⟨1, _⟩ => rfl)
  rw [ReadP.val_main_v93_apply, ReadP.val_main_cst_22_apply, Ideal.ofBits_def, Ideal.ofBits_zero_f32, zero_add]
  refine Finset.sum_congr rfl fun k _ => ?_
  rw [hs k, ReadP.val_main_v92_apply, ref_pre, Ideal.mulf_def]

/-- The reference's result is the network's, in the reference's arrangement. -/
theorem ref_value (x0 : Arr2 50000 128) (x1 : EdgeList) (x2 : Arr2 128 100) (x3 : (⟨1, ![100]⟩ : Shape).Idx → EReal)
    (x4 : Arr2 100 64) (x5 : (⟨1, ![64]⟩ : Shape).Idx → EReal) (n : Fin 50000) (o : Fin 64) :
    ReadP.val_main_v99 (F := Ideal) x0 x1 x2 x3 x4 x5 (ix2 n o)
      = outR (rowS x1) (rowD x1) (lands x1) (dinv x1) (fun n k => x0 (ix2 n k)) (fun k j => x2 (ix2 k j)) (fun j => x3 (ix1 j))
          (fun j o => x4 (ix2 j o)) (fun o => x5 (ix1 o)) eps n o := by
  have hi : ReadP.idx_main_v94 (ReadP.idx_main_v98 (ix2 n o)) = ix1 n :=
    funext fun a => Fin.ext (by match a with | ⟨0, _⟩ => rfl)
  unfold outR normalize eps
  rw [ReadP.val_main_v99_apply, ReadP.val_main_v98_apply, ReadP.val_main_v97_apply, ReadP.val_main_v95_apply,
    ReadP.val_main_v94_apply, hi, v93_apply, ReadP.val_main_v96_apply, ReadP.val_main_cst_23_apply, ref_pre,
    Ideal.hostDivf_def, Ideal.maximumf_def, Ideal.hostUnary_sqrt_def, Ideal.ofBits_def]

end Cert.Gcn

end
-- ==== Proof.GraphFacts.lean ====
import proofs.«167101_j2869038154062_2_alg».proof.Proof.Graph

/-! # Three facts about the graph quantities

A node's scale is never negative and never infinite, and an edge that lands in a node gathers that node's scale by its
destination. -/

noncomputable section

namespace Cert.Gcn

open Idealize.ShloMosaic Idealize.ShloMosaic.ValueIdx Cert.ReferenceIdeal

/-- The single-precision constant with bits 0x3F800000 is the real number 1. -/
theorem ofBits_one_f32 : Ideal.ofBits .f32 0x3F800000#32 = ((1 : ℝ) : EReal) := by
  simp [Ideal.ofBits, Ideal.ieee]
  norm_cast
  norm_num

/-- The inverse square root of an extended real at least 1 is neither negative nor infinite. -/
theorem rsqrt_of_one_le (y : EReal) (hy : ((1 : ℝ) : EReal) ≤ y) : 0 ≤ Ideal.rsqrt y ∧ Ideal.rsqrt y ≠ ⊤ := by
  induction y using EReal.rec with
  | bot => exact absurd (le_bot_iff.mp hy) (EReal.coe_ne_bot 1)
  | top => simp
  | coe r =>
    have hr : (1 : ℝ) ≤ r := by exact_mod_cast hy
    have h1 : ¬ r < 0 := by linarith
    have h2 : r ≠ 0 := by intro h; linarith
    rw [Ideal.rsqrt_coe, if_neg h1, if_neg h2]
    refine ⟨?_, EReal.coe_ne_top _⟩
    exact_mod_cast inv_nonneg.mpr (Real.sqrt_nonneg r)

/-- A node's scale is the zero of the rectifying select, or the inverse square root of a degree bounded below by 1. -/
theorem dinv_cases (x1 : EdgeList) (n : Fin 50000) :
    dinv x1 n = 0 ∨ ∃ y : EReal, ((1 : ℝ) : EReal) ≤ y ∧ dinv x1 n = Ideal.rsqrt y := by
  unfold dinv
  rw [ReadP.val_main_v17_apply, ReadP.val_main_v16_apply, ReadP.val_main_v15_apply, ReadP.val_main_v14_apply,
    ReadP.val_main_cst_2_apply, ReadP.val_main_call0_v1_apply, ReadP.val_main_call0_v0_apply,
    ReadP.val_main_cst_3_apply]
  generalize ReadP.val_main_v13 (F := Ideal) x1 (ix1 n) = c
  generalize ReadP.val_main_v11 (F := Ideal) x1 (ix1 n) = d
  rw [Ideal.ofBits_def, Ideal.ofBits_def, Ideal.ofBits_zero_f32, ofBits_one_f32, Ideal.hostUnary_rsqrt_def,
    Ideal.maximumf_def]
  unfold Scalar.select
  split
  · exact Or.inr ⟨max d ((1 : ℝ) : EReal), le_max_right _ _, rfl⟩
  · exact Or.inl rfl

theorem dinv_nonneg (x1 : EdgeList) (n : Fin 50000) : 0 ≤ dinv x1 n := by
  rcases dinv_cases x1 n with h | ⟨y, hy, h⟩
  · rw [h]
  · rw [h]; exact (rsqrt_of_one_le y hy).1

theorem dinv_ne_top (x1 : EdgeList) (n : Fin 50000) : dinv x1 n ≠ ⊤ := by
  rcases dinv_cases x1 n with h | ⟨y, hy, h⟩
  · rw [h]; exact EReal.zero_ne_top
  · rw [h]; exact (rsqrt_of_one_le y hy).2

theorem lands_rowD (x1 : EdgeList) (e : Fin 850000) (n : Fin 50000) : lands x1 e n → rowD x1 e = n := by
  intro h
  unfold lands dstIdx at h
  unfold rowD dstwIdx
  rw [ReadP.val_main_v44_apply] at h
  rw [ReadP.val_main_v30_apply, ReadP.val_main_v29_apply, ReadP.val_main_v26_apply, ReadP.val_main_v28_apply,
    ReadP.val_main_v25_apply, ReadP.val_main_c_5_apply]
  have hi : ReadP.idx_main_v30 (ix2 e (0 : Fin 1)) = ReadP.idx_main_v44 (ix2 e (0 : Fin 1)) := rfl
  rw [hi]
  generalize ReadP.val_main_v6 (F := Ideal) x1 (ReadP.idx_main_v44 (ix2 e (0 : Fin 1))) = b at h ⊢
  have hn := n.isLt
  have hslt : b.slt 0#32 = false := by
    simp only [BitVec.slt, BitVec.toInt_zero]
    rw [h]; simp
  unfold Scalar.select IntOp.cmpi
  simp only [hslt]
  simp only [BitVec.ofBool_false]
  rw [if_neg (by decide)]
  unfold clampRow
  apply Fin.ext
  simp only [h]
  omega

end Cert.Gcn

end
-- ==== Proof.lean ====
/-
  A two-layer graph convolution with symmetric normalisation followed by a row-wise L2 normalisation: three
  TensorCore kernels with host gathers and scatter-adds between them, against the jnp reference.

  The kernel program factors the edge weight `d (src) · d (dst)` of every message: it scales the dense product by
  `d` before the gather, adds the gathered rows up by destination, and scales the sum by `d (dst)` in the next kernel;
  the reference scales every message by both factors and adds. On an edge that lands on node `n` the destination's
  scale IS `d n` (an index in range is its own wrapped and clamped form), a nonnegative finite number, so it comes out
  of the sum (Spec.lean, `layerK_eq_layerR`); nothing else differs but the hidden width, which the kernel pads from 100
  to 128 with zero columns and rows that contribute zero terms (KAlgebra.lean). The law needs no finiteness of the
  inputs, only of `d`; the precondition is not opened.

  What is read: the kernel program's result buffer, from the generated frame's segments, through each kernel's
  whole-array function (Region0–2) and each host stretch (KHost0, KHost12, KPersist, KLaunch, KAgg, KValue), is
  `outK`; the reference's result, through its generated run and read lemmas (RefRunP, RefReadP, RefValue), is `outR`.
-/
import proofs.«167101_j2869038154062_2_alg».proof.Defs
import proofs.«167101_j2869038154062_2_alg».proof.Proof.Gen.Kernel
import proofs.«167101_j2869038154062_2_alg».proof.Proof.Gen.Kernel.Frame
import proofs.«167101_j2869038154062_2_alg».proof.Proof.Gen.KernelIdeal
import proofs.«167101_j2869038154062_2_alg».proof.Proof.Gen.KernelIdeal.Frame
import proofs.«167101_j2869038154062_2_alg».proof.Proof.Gen.ReferenceIdeal
import proofs.«167101_j2869038154062_2_alg».proof.Proof.Gen.Pre_finite_inputs
import proofs.«167101_j2869038154062_2_alg».proof.Proof.KRun
import proofs.«167101_j2869038154062_2_alg».proof.Proof.KValue
import proofs.«167101_j2869038154062_2_alg».proof.Proof.RefValue
import proofs.«167101_j2869038154062_2_alg».proof.Proof.GraphFacts
import Idealize.ShloMosaic.Adequacy
import Idealize.ShloMosaic.Init

noncomputable section

namespace Cert.Proof

open Idealize.ShloMosaic Idealize.ShloMosaic.TcCoe Idealize.SL.Sem Idealize.ShloMosaic.ValueIdx
open Cert.Gcn (Arr2 EdgeList rowS rowD lands dinv outK outR eps)

/-! ## The common result, as one function of the six arguments -/

/-- The network's output, in the kernel's arrangement, as an array. -/
def result (x0 : Arr2 50000 128) (x1 : EdgeList) (x2 : Arr2 128 100) (x3 : (⟨1, ![100]⟩ : Shape).Idx → EReal)
    (x4 : Arr2 100 64) (x5 : (⟨1, ![64]⟩ : Shape).Idx → EReal) : Arr2 50000 64 := fun i =>
  outK (rowS x1) (lands x1) (dinv x1) (fun n k => x0 (ix2 n k)) (fun k j => x2 (ix2 k j)) (fun j => x3 (ix1 j))
    (fun j o => x4 (ix2 j o)) (fun o => x5 (ix1 o)) eps (⟨(i 0).val, (i 0).isLt⟩ : Fin 50000) (⟨(i 1).val, (i 1).isLt⟩ : Fin 64)

/-- The reference's result stage is that function: its own arrangement equals the kernel's, the scale being
    nonnegative and finite and a landing edge's destination row being the node itself. -/
theorem ref_result (x0 : Arr2 50000 128) (x1 : EdgeList) (x2 : Arr2 128 100) (x3 : (⟨1, ![100]⟩ : Shape).Idx → EReal)
    (x4 : Arr2 100 64) (x5 : (⟨1, ![64]⟩ : Shape).Idx → EReal) :
    Cert.ReferenceIdeal.ReadP.val_main_v99 (F := Ideal) x0 x1 x2 x3 x4 x5 = result x0 x1 x2 x3 x4 x5 := by
  funext i
  obtain ⟨n, o, rfl⟩ : ∃ (n : Fin 50000) (o : Fin 64), i = ix2 n o := ⟨i 0, i 1, eq_ix2 i⟩
  rw [Cert.Gcn.ref_value]
  exact (congrFun (congrFun (Cert.Gcn.outK_eq_outR (rowS x1) (rowD x1) (lands x1) (dinv x1) _ _ _ _ _
    (Cert.Gcn.dinv_nonneg x1) (Cert.Gcn.dinv_ne_top x1) (Cert.Gcn.lands_rowD x1) eps) n) o).symm

/-- The kernel program's result buffer is that function of its arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v52)
      = result (Cert.KernelIdeal.Gen.A0 m c) (Cert.KernelIdeal.Gen.A1 m c) (Cert.KernelIdeal.Gen.A2 m c)
          (Cert.KernelIdeal.Gen.A3 m c) (Cert.KernelIdeal.Gen.A4 m c) (Cert.KernelIdeal.Gen.A5 m c) := by
  funext i
  obtain ⟨n, o, rfl⟩ : ∃ (n : Fin 50000) (o : Fin 64), i = ix2 n o := ⟨i 0, i 1, eq_ix2 i⟩
  exact Cert.KernelIdeal.Gen.kernel_value m ρ c n o

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealisation rewrote nothing. -/
theorem preserves : Cert.preserves_Kernel_KernelIdeal := trivial

/-- From memories agreeing on the arguments both programs end with the network's output in their result. -/
theorem algebraic : Cert.algebraic_KernelIdeal_ReferenceIdeal := by
  intro m ρ m' ρ' _ hagree
  refine ⟨fun c => result (Cert.KernelIdeal.Gen.A0 m c) (Cert.KernelIdeal.Gen.A1 m c) (Cert.KernelIdeal.Gen.A2 m c)
    (Cert.KernelIdeal.Gen.A3 m c) (Cert.KernelIdeal.Gen.A4 m c) (Cert.KernelIdeal.Gen.A5 m c), ?_, ?_⟩
  · exact (θ_run Cert.KernelIdeal.defs _ _).mono (fun r h c => ⟨(h c).1.trans (kernel_result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v99_eq, (hagree c).1, (hagree c).2.1, (hagree c).2.2.1, (hagree c).2.2.2.1,
      (hagree c).2.2.2.2.1, (hagree c).2.2.2.2.2]
    exact ref_result _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
